-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.truncf_extf.Statement Cert.KernelIdeal.S4x4x256x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4x64x256x256 : Shape := ⟨5, ![2, 4, 64, 256, 256]⟩
abbrev S_ : Shape := ⟨0, ![]⟩

class Facts : Prop where
  bcast_S_S2x4x64x256x256 : S_.BroadcastsInDim S2x4x64x256x256 (![] : Fin 0 → Fin S2x4x64x256x256.rank)
  reducesTo_S2x4x64x256x256_S_d0_1_2_3_4 : S2x4x64x256x256.ReducesTo [0, 1, 2, 3, 4] S_
  h_S_ : 0 < S_.numel

variable [Facts]

def fn {F : FTy → Type} [FloatOps F] (main_arg0 : FVec F S2x4x64x256x256 .f32) : IVec S_ 1 :=
  let main_v0 : FVec F S2x4x64x256x256 .f32 := Host.absf main_arg0
  let main_cst : FVec F S_ .f32 := constant S_ .f32 0x7F800000#32
  let main_v1 : FVec F S2x4x64x256x256 .f32 := broadcastInDim S2x4x64x256x256 ![] bcast_S_S2x4x64x256x256 main_cst
  let main_v2 : IVec S2x4x64x256x256 1 := cmpf .olt main_v0 main_v1
  let main_c : IVec S_ 1 := constantI S_ 1 1#1
  let main_v3 : IVec S_ 1 := (fun x v => Host.reduce IntOp.andi x v reducesTo_S2x4x64x256x256_S_d0_1_2_3_4 h_S_) main_v2 main_c
  main_v3
-- ==== Kernel.lean ====
abbrev S2x4x64x256x256 : Shape := ⟨5, ![2, 4, 64, 256, 256]⟩
abbrev S_ : Shape := ⟨0, ![]⟩
abbrev S4 : Shape := ⟨1, ![4]⟩
abbrev S1x4x4x256x256 : Shape := ⟨5, ![1, 4, 4, 256, 256]⟩
abbrev S1x4x1x256x256 : Shape := ⟨5, ![1, 4, 1, 256, 256]⟩
abbrev S4x1x1x1 : Shape := ⟨4, ![4, 1, 1, 1]⟩
abbrev S4x4x256x256 : Shape := ⟨4, ![4, 4, 256, 256]⟩
abbrev S4x1x256x256 : Shape := ⟨4, ![4, 1, 256, 256]⟩
abbrev S4x6x256x256 : Shape := ⟨4, ![4, 6, 256, 256]⟩

abbrev nBuf : Space → Nat
  | .hbm => 6
  | .vmem => 10
  | .smem => 0
  | _ => 0

abbrev bufTy : (tb : Table) → Fin (tcTables nBuf tb) → BufTy
  | .hbm, ⟨0, _⟩ => ⟨S2x4x64x256x256, .f32⟩
  | .hbm, ⟨1, _⟩ => ⟨S_, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S2x4x64x256x256, .f32⟩
  | .local _ .vmem, ⟨0, _⟩ => ⟨S1x4x4x256x256, .f32⟩
  | .local _ .vmem, ⟨1, _⟩ => ⟨S1x4x4x256x256, .f32⟩
  | .local _ .vmem, ⟨2, _⟩ => ⟨S1x4x1x256x256, .f32⟩
  | .local _ .vmem, ⟨3, _⟩ => ⟨S1x4x1x256x256, .f32⟩
  | .local _ .vmem, ⟨4, _⟩ => ⟨S1x4x1x256x256, .f32⟩
  | .local _ .vmem, ⟨5, _⟩ => ⟨S1x4x1x256x256, .f32⟩
  | .local _ .vmem, ⟨6, _⟩ => ⟨S4, .f32⟩
  | .local _ .vmem, ⟨7, _⟩ => ⟨S4, .f32⟩
  | .local _ .vmem, ⟨8, _⟩ => ⟨S1x4x4x256x256, .f32⟩
  | .local _ .vmem, ⟨9, _⟩ => ⟨S1x4x4x256x256, .f32⟩
  | _, _ => ⟨S2x4x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![arg0.toNat, c0_i32_0.toNat, v2.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.addi v0 c4_i32_0
  let c63_i32 : BitVec 32 := 63#32
  let v2 : BitVec 32 := Scalar.minsi v1 c63_i32
  let c0_i32 : BitVec 32 := 0#32
  let c0_i32_1 : BitVec 32 := 0#32
  let c0_i32_2 : BitVec 32 := 0#32
  let c0_i32_3 : BitVec 32 := 0#32
  ![arg0.toNat, c0_i32.toNat, v2.toNat, c0_i32_1.toNat, c0_i32_2.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x4x4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x4x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S2x4x64x256x256_S4_d0_2_3_4 : S2x4x64x256x256.ReducesTo [0, 2, 3, 4] S4
  h_S_ : 0 < S_.numel
  inb_S4_S4_0 : ∀ a, (![0] : Fin 1 → Nat) a + S4.size a ≤ S4.size a
  h_S4 : 0 < S4.numel
  shapeCasts_S4_S4 : S4.ShapeCasts S4
  shapeCasts_S4_S4x1x1x1 : S4.ShapeCasts S4x1x1x1
  inb_S1x4x4x256x256_S1x4x4x256x256_0_0_0_0_0 : ∀ a, (![0, 0, 0, 0, 0] : Fin 5 → Nat) a + S1x4x4x256x256.size a ≤ S1x4x4x256x256.size a
  h_S1x4x4x256x256 : 0 < S1x4x4x256x256.numel
  shapeCasts_S1x4x4x256x256_S4x4x256x256 : S1x4x4x256x256.ShapeCasts S4x4x256x256
  broadcasts_S4x1x1x1_S4x4x256x256 : S4x1x1x1.Broadcasts S4x4x256x256
  natLt_1_32 : 1 < 32
  bitsLt_bf16_f32 : FTy.bits .bf16 < FTy.bits .f32
  inb_S1x4x1x256x256_S1x4x1x256x256_0_0_0_0_0 : ∀ a, (![0, 0, 0, 0, 0] : Fin 5 → Nat) a + S1x4x1x256x256.size a ≤ S1x4x1x256x256.size a
  h_S1x4x1x256x256 : 0 < S1x4x1x256x256.numel
  shapeCasts_S1x4x1x256x256_S4x1x256x256 : S1x4x1x256x256.ShapeCasts S4x1x256x256
  broadcasts_S4x1x1x1_S4x1x256x256 : S4x1x1x1.Broadcasts S4x1x256x256
  concatenates_S4x1x256x256_S4x4x256x256_S4x1x256x256_S4x6x256x256_d1 : Shape.Concatenates [S4x1x256x256, S4x4x256x256, S4x1x256x256] S4x6x256x256 1
  slices_S4x6x256x256_o0_0_0_0_S4x4x256x256 : S4x6x256x256.Slices ![0, 0, 0, 0] S4x4x256x256
  slices_S4x6x256x256_o0_1_0_0_S4x4x256x256 : S4x6x256x256.Slices ![0, 1, 0, 0] S4x4x256x256
  slices_S4x6x256x256_o0_2_0_0_S4x4x256x256 : S4x6x256x256.Slices ![0, 2, 0, 0] S4x4x256x256
  iota_S4x4x256x256_d2_w32 : S4x4x256x256.Iotas .tc 32 [2]
  rotates_S4x4x256x256_d2 : S4x4x256x256.Rotates 2 none
  iota_S4x4x256x256_d3_w32 : S4x4x256x256.Iotas .tc 32 [3]
  rotates_S4x4x256x256_d3 : S4x4x256x256.Rotates 3 none
  shapeCasts_S4x4x256x256_S1x4x4x256x256 : S4x4x256x256.ShapeCasts S1x4x4x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x4x256x256.size a ≤ S2x4x64x256x256.size a
  hwx0_0 : ∀ i : grid0.Coords, EltTy.bits .f32 = 32 ∨ (Rect.block (s := S2x4x64x256x256) S1x4x4x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x1x256x256.size a ≤ S2x4x64x256x256.size a
  hwx0_1 : ∀ i : grid0.Coords, EltTy.bits .f32 = 32 ∨ (Rect.block (s := S2x4x64x256x256) S1x4x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x1x256x256.size a ≤ S2x4x64x256x256.size a
  hwx0_2 : ∀ i : grid0.Coords, EltTy.bits .f32 = 32 ∨ (Rect.block (s := S2x4x64x256x256) S1x4x1x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4.size a ≤ S4.size a
  hwx0_3 : ∀ i : grid0.Coords, EltTy.bits .f32 = 32 ∨ (Rect.block (s := S4) S4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4.size a ≤ S4.size a
  hwx0_4 : ∀ i : grid0.Coords, EltTy.bits .f32 = 32 ∨ (Rect.block (s := S4) S4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x4x256x256.size a ≤ S2x4x64x256x256.size a
  hwx0_5 : ∀ i : grid0.Coords, EltTy.bits .f32 = 32 ∨ (Rect.block (s := S2x4x64x256x256) S1x4x4x256x256.size (cc0_transform_5 i) (hinb0_5 i)).WholeWords (EltTy.packing .f32)

variable [Facts₀]

abbrev win0_0 : Pipeline.Window sig grid0 :=
  Pipeline.Window.ofSpec (Memref.whole main_arg0) S1x4x4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x4x1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4x4x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x4x64x256x256 : Shape := ⟨5, ![2, 4, 64, 256, 256]⟩
abbrev S_ : Shape := ⟨0, ![]⟩
abbrev S4 : Shape := ⟨1, ![4]⟩
abbrev S1x4x1x1x1 : Shape := ⟨5, ![1, 4, 1, 1, 1]⟩

abbrev nBuf : Space → Nat
  | .hbm => 24
  | .vmem => 0
  | .smem => 0
  | _ => 0

abbrev bufTy : (tb : Table) → Fin (tcTables nBuf tb) → BufTy
  | .hbm, ⟨0, _⟩ => ⟨S2x4x64x256x256, .f32⟩
  | .hbm, ⟨1, _⟩ => ⟨S_, .f32⟩
  | .hbm, ⟨2, _⟩ => ⟨S4, .f32⟩
  | .hbm, ⟨3, _⟩ => ⟨S1x4x1x1x1, .f32⟩
  | .hbm, ⟨4, _⟩ => ⟨S_, .f32⟩
  | .hbm, ⟨5, _⟩ => ⟨S4, .f32⟩
  | .hbm, ⟨6, _⟩ => ⟨S1x4x1x1x1, .f32⟩
  | .hbm, ⟨7, _⟩ => ⟨S2x4x64x256x256, .f32⟩
  | .hbm, ⟨8, _⟩ => ⟨S2x4x64x256x256, .f32⟩
  | .hbm, ⟨9, _⟩ => ⟨S1x4x1x1x1, .f32⟩
  | .hbm, ⟨10, _⟩ => ⟨S2x4x64x256x256, .f32⟩
  | .hbm, ⟨11, _⟩ => ⟨S2x4x64x256x256, .f32⟩
  | .hbm, ⟨12, _⟩ => ⟨S_, .f32⟩
  | .hbm, ⟨13, _⟩ => ⟨S2x4x64x256x256, .f32⟩
  | .hbm, ⟨14, _⟩ => ⟨S2x4x64x256x256, .i1⟩
  | .hbm, ⟨15, _⟩ => ⟨S2x4x64x256x256, .f32⟩
  | .hbm, ⟨16, _⟩ => ⟨S_, .f32⟩
  | .hbm, ⟨17, _⟩ => ⟨S_, .f32⟩
  | .hbm, ⟨18, _⟩ => ⟨S2x4x64x256x256, .f32⟩
  | .hbm, ⟨19, _⟩ => ⟨S_, .f32⟩
  | .hbm, ⟨20, _⟩ => ⟨S2x4x64x256x256, .f32⟩
  | .hbm, ⟨21, _⟩ => ⟨S2x4x64x256x256, .i1⟩
  | .hbm, ⟨22, _⟩ => ⟨S2x4x64x256x256, .f32⟩
  | .hbm, ⟨23, _⟩ => ⟨S2x4x64x256x256, .f32⟩
  | _, _ => ⟨S2x4x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S2x4x64x256x256_S4_d0_2_3_4 : S2x4x64x256x256.ReducesTo [0, 2, 3, 4] S4
  h_S_ : 0 < S_.numel
  bcast_S4_S1x4x1x1x1_1 : S4.BroadcastsInDim S1x4x1x1x1 (![1] : Fin 1 → Fin S1x4x1x1x1.rank)
  bcast_S1x4x1x1x1_S2x4x64x256x256_0_1_2_3_4 : S1x4x1x1x1.BroadcastsInDim S2x4x64x256x256 (![0, 1, 2, 3, 4] : Fin 5 → Fin S2x4x64x256x256.rank)
  bcast_S_S2x4x64x256x256 : S_.BroadcastsInDim S2x4x64x256x256 (![] : Fin 0 → Fin S2x4x64x256x256.rank)
  bcast_S_S_ : S_.BroadcastsInDim S_ (![] : Fin 0 → Fin S_.rank)
  reduceWindows_S2x4x64x256x256_S2x4x64x256x256_w1s1p0_0_w1s1p0_0_w3s1p1_1_w3s1p1_1_w3s1p1_1 : S2x4x64x256x256.ReduceWindows (![1, 1, 3, 3, 3] : Fin 5 → Nat) ![1, 1, 1, 1, 1] ![0, 0, 1, 1, 1] ![0, 0, 1, 1, 1] S2x4x64x256x256

variable [Facts₀]

class Facts : Prop extends Facts₀ where

variable [Facts]
-- ==== Proof.KernelFrame.lean ====
/-
  The frame of the kernel program as printed: @main runs (terminates, nothing faulting), its result array ends at
  what the pipeline's proof data computes and its argument array ends unchanged.

  The one pallas_call hands the argument array to three input windows (a block of four rows and the single rows
  before and after it), so the launch is the one for windows that share an array: the argument array's full
  share is split three ways among them. The body stores its whole output block once, so what it leaves in the
  output window's buffer is the stored payload itself, a function of the five input blocks.
-/
import proofs.«135130_j32341103739184_2_alg».proof.Proof.Gen.Kernel.Launch
import proofs.«135130_j32341103739184_2_alg».proof.Proof.Gen.Kernel.Skeleton
import proofs.«135130_j32341103739184_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four host operations (two
    constants and the two reductions of the argument array). -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place: where the window is not
    fetched its block index has not moved since the point before. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place: where the window is not
    fetched its block index has not moved since the point before. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place: where the window is not
    fetched its block index has not moved since the point before. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place: where the window is not
    fetched its block index has not moved since the point before. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place: where the window is not
    fetched its block index has not moved since the point before. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## Loads and the one store through whole-buffer rectangles -/

theorem zeros5 : (![0, 0, 0, 0, 0] : Fin 5 → Nat) = fun _ => 0 := funext fun a => by fin_cases a <;> rfl
theorem zeros1 : (![0] : Fin 1 → Nat) = fun _ => 0 := funext fun a => by fin_cases a <;> rfl

/-- A load through the whole-shape rectangle reads the buffer's contents. -/
theorem readAt_whole_a {κ : Kind} {sp : Space} (v : View sig κ sp S1x4x4x256x256 .f32) (f : v.ty.Contents (Elt F)) :
    v.readAt (Elt F) (Rect.unit (s := S1x4x4x256x256) ![0, 0, 0, 0, 0] S1x4x4x256x256.size inb_S1x4x4x256x256_S1x4x4x256x256_0_0_0_0_0).toLoadRect f
      = v.read (Elt F) f :=
  View.ld_unit_zero (S := S1x4x4x256x256) zeros5 inb_S1x4x4x256x256_S1x4x4x256x256_0_0_0_0_0 _
theorem readAt_whole_b {κ : Kind} {sp : Space} (v : View sig κ sp S1x4x1x256x256 .f32) (f : v.ty.Contents (Elt F)) :
    v.readAt (Elt F) (Rect.unit (s := S1x4x1x256x256) ![0, 0, 0, 0, 0] S1x4x1x256x256.size inb_S1x4x1x256x256_S1x4x1x256x256_0_0_0_0_0).toLoadRect f
      = v.read (Elt F) f :=
  View.ld_unit_zero (S := S1x4x1x256x256) zeros5 inb_S1x4x1x256x256_S1x4x1x256x256_0_0_0_0_0 _
theorem readAt_whole_c {κ : Kind} {sp : Space} (v : View sig κ sp S4 .f32) (f : v.ty.Contents (Elt F)) :
    v.readAt (Elt F) (Rect.unit (s := S4) ![0] S4.size inb_S4_S4_0).toLoadRect f = v.read (Elt F) f :=
  View.ld_unit_zero (S := S4) zeros1 inb_S4_S4_0 _

/-- The rectangle of the body's one store: the whole output block. -/
abbrev rOut : Rect S1x4x4x256x256 :=
  Rect.unit (s := S1x4x4x256x256) ![0, 0, 0, 0, 0] S1x4x4x256x256.size inb_S1x4x4x256x256_S1x4x4x256x256_0_0_0_0_0

/-- It covers the block. -/
theorem coverOut (w : Vec F S1x4x4x256x256 .f32) (y : S1x4x4x256x256.Idx) :
    ∃ pc ∈ ([⟨rOut, w⟩] : List (View.Piece (Elt F) S1x4x4x256x256 .f32)), y ∈ pc.1.set :=
  ⟨⟨rOut, w⟩, List.mem_singleton_self _,
    View.mem_set_unit_zero (S := S1x4x4x256x256) zeros5 inb_S1x4x4x256x256_S1x4x4x256x256_0_0_0_0_0 y⟩

/-- One store through the whole-shape rectangle leaves its payload, whatever the buffer held. -/
theorem read_store_whole {κ : Kind} {sp : Space} (v : View sig κ sp S1x4x4x256x256 .f32) (f : v.ty.Contents (Elt F))
    (w : Vec F S1x4x4x256x256 .f32) :
    v.read (Elt F) (v.writes (Elt F) f [⟨rOut, w⟩]) = w :=
  (View.read_writes_eq_canon v f [⟨rOut, w⟩] (coverOut w)).trans
    (View.canon_unit_zero (S := S1x4x4x256x256) zeros5 inb_S1x4x4x256x256_S1x4x4x256x256_0_0_0_0_0 w)

/-! ## What the body leaves in the output window's buffer -/

/-- The output block the body stores at grid point `i`, from the five input blocks: the four-row block `x0`, the
    rows before and after it `x1`, `x2` (used only off the first and the last row block, the two comparisons), and
    the per-channel minimum and maximum `x3`, `x4`. -/
def outBlk (i : grid0.Coords) (x0 : Vec F S1x4x4x256x256 .f32) (x1 x2 : Vec F S1x4x1x256x256 .f32) (x3 x4 : Vec F S4 .f32) :
    Vec F S1x4x4x256x256 .f32 :=
  k0_pay1 (k0_pay7 (Scalar.cmpi .sgt (BitVec.ofNat 32 (i 1).val) 0#32) (Scalar.cmpi .slt (BitVec.ofNat 32 (i 1).val) 15#32)
    (k0_pay4 x3 x4 x0) (k0_pay5 x3 x4 x1) (k0_pay6 x3 x4 x2))

/-! ## The body's triple -/

set_option maxHeartbeats 1000000 in
/-- The kernel body on whole staging memrefs, the inputs' at read contents and the output's at anything, runs to the
    continuation holding the inputs' as they were and the output's at `outBlk` of the inputs': five loads through
    whole-buffer rectangles, an unused load of the output buffer, and one store of the whole output block. -/
theorem sound_kernel (c : Dev nD) (E : Set ℕ) (i : grid0.Coords)
    (arg2 : Memref sig .tc .vmem S1x4x4x256x256 .f32) (harg2 : arg2.IsWhole) (arg3 : Memref sig .tc .vmem S1x4x1x256x256 .f32) (harg3 : arg3.IsWhole)
    (arg4 : Memref sig .tc .vmem S1x4x1x256x256 .f32) (harg4 : arg4.IsWhole) (arg5 : Memref sig .tc .vmem S4 .f32) (harg5 : arg5.IsWhole)
    (arg6 : Memref sig .tc .vmem S4 .f32) (harg6 : arg6.IsWhole) (arg7 : Memref sig .tc .vmem S1x4x4x256x256 .f32) (harg7 : arg7.IsWhole)
    (x0 : Vec F S1x4x4x256x256 .f32) (x1 x2 : Vec F S1x4x1x256x256 .f32) (x3 x4 : Vec F S4 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlk i x0 x1 x2 x3 x4)) -∗ K ⟨⟩))
      ⊢ wp frame (wpE (defs₀ (F := F)) Variants.none c none) E
          (cc0__fused_kernel i arg2 harg2 arg3 harg3 arg4 harg4 arg5 harg5 arg6 harg6 arg7 harg7) K := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  rw [read_store_whole, readAt_whole_a, readAt_whole_b, readAt_whole_b, readAt_whole_c, readAt_whole_c]
  rfl

/-! ## The pipeline's proof data -/

/-- The proof data of the one pipeline on core `c`: the arrays as the region finds them; after the body at point
    `t` each input's buffer at its block and the output's at `outBlk` of the input blocks; no invariant carried
    between points; nothing owed. The three windows on the argument array hold disjoint parts of its full share
    that add up to it; the other inputs are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (grid0.coords t) (iblk m c 0 t) (iblk m c 1 t) (iblk m c 2 t) (iblk m c 3 t) (iblk m c 4 t)
  Φ _ := iprop(emp)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = outBlk (grid0.coords t) (iblk m c 0 t) (iblk m c 1 t) (iblk m c 2 t) (iblk m c 3 t) (iblk m c 4 t) := by dsimp only [dats]

/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-- The share each window holds of its array. -/
theorem share0 (c : Dev nD) : (dats m 0 c).share 0 = fullShare.left := by
  unfold Dat.share; rw [if_neg (show ¬ ((cfg0.win 0).isOut = true) from Bool.false_ne_true)]; dsimp only [dats]
theorem share1 (c : Dev nD) : (dats m 0 c).share 1 = fullShare.right.left := by
  unfold Dat.share; rw [if_neg (show ¬ ((cfg0.win 1).isOut = true) from Bool.false_ne_true)]; dsimp only [dats]
theorem share2 (c : Dev nD) : (dats m 0 c).share 2 = fullShare.right.right := by
  unfold Dat.share; rw [if_neg (show ¬ ((cfg0.win 2).isOut = true) from Bool.false_ne_true)]; dsimp only [dats]
theorem share3 (c : Dev nD) : (dats m 0 c).share 3 = fullShare := by
  unfold Dat.share; rw [if_neg (show ¬ ((cfg0.win 3).isOut = true) from Bool.false_ne_true)]; dsimp only [dats]
theorem share4 (c : Dev nD) : (dats m 0 c).share 4 = fullShare := by
  unfold Dat.share; rw [if_neg (show ¬ ((cfg0.win 4).isOut = true) from Bool.false_ne_true)]; dsimp only [dats]
theorem share5 (c : Dev nD) : (dats m 0 c).share 5 = fullShare := by
  unfold Dat.share; rw [if_pos (show (cfg0.win 5).isOut = true from rfl)]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: the argument array's share split three ways -/

/-- The distinct arrays behind the six windows: the argument, the two reductions, the result. -/
theorem arrRefs_eq : Finset.univ.image (Pipeline.arrRef spec0) = [main_arg0, main_v0, main_v1, main_v2].toFinset := by decide

/-- Window `w`'s array at entry, held whole at the window's share. -/
theorem arr_entry (c : Dev nD) (w : Fin cfg0.W) (q : PosShare TreeShare) (hq : (dats m 0 c).share w = q) :
    ((cfg0.win w).arr.view.loc (c : Thread nD τ) ↦[(cfg0.win w).arr.view.set]{(dats m 0 c).share w} (dats m 0 c).arrAt w 0 : sProp 𝕄)
      = (((c : Thread nD τ).loc (Pipeline.arrRef spec0 w)) ↦{q} V m c (Pipeline.arrRef spec0 w)) := by
  rw [(arr_whole0 w).set_eq_univ, hq]; rfl

/-- The proof data's arrays at entry, window by window. -/
theorem arrays_entry (c : Dev nD) : ((dats m 0 c).arrays ((dats m 0 c).arrAt · 0) : sProp 𝕄)
    = iprop((((c : Thread nD τ).loc main_arg0) ↦{fullShare.left} V m c main_arg0)
        ∗ (((c : Thread nD τ).loc main_arg0) ↦{fullShare.right.left} V m c main_arg0)
        ∗ (((c : Thread nD τ).loc main_arg0) ↦{fullShare.right.right} V m c main_arg0)
        ∗ (((c : Thread nD τ).loc main_v0) ↦{fullShare} V m c main_v0)
        ∗ (((c : Thread nD τ).loc main_v1) ↦{fullShare} V m c main_v1)
        ∗ (((c : Thread nD τ).loc main_v2) ↦{fullShare} V m c main_v2)) := by
  unfold Dat.arrays
  rw [bigSep_W0]
  exact congrArg₂ BI.sep (arr_entry m c 0 _ (share0 m c)) (congrArg₂ BI.sep (arr_entry m c 1 _ (share1 m c))
    (congrArg₂ BI.sep (arr_entry m c 2 _ (share2 m c)) (congrArg₂ BI.sep (arr_entry m c 3 _ (share3 m c))
      (congrArg₂ BI.sep (arr_entry m c 4 _ (share4 m c)) (arr_entry m c 5 _ (share5 m c))))))

/-- The four buffers behind the windows' arrays, each whole at the full share. -/
theorem arrBufs_entry (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0)
          ∗ (((c : Thread nD τ).loc main_v0) ↦{fullShare} V m c main_v0)
          ∗ (((c : Thread nD τ).loc main_v1) ↦{fullShare} V m c main_v1)
          ∗ (((c : Thread nD τ).loc main_v2) ↦{fullShare} V m c main_v2)) := by
  unfold Pipeline.arrBufs
  exact bigSep_eq_bigSepL_of_eq [main_arg0, main_v0, main_v1, main_v2] arrRefs_eq (by decide) _

/-- The buffers behind the arrays make the proof data's arrays at entry: the argument array's full share is split
    into its left half and the two halves of its right half, one part per window reading it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_entry, arrays_entry]
  iintro ⟨Ha, Hv0, Hv1, Hv2⟩
  ihave Hs := (pointsTo_share (PosShare.mem_left_op_right fullShare)).1 $$ Ha
  icases Hs with ⟨Hl, Hr⟩
  ihave Hrs := (pointsTo_share (PosShare.mem_left_op_right fullShare.right)).1 $$ Hr
  icases Hrs with ⟨Hrl, Hrr⟩
  isplitl [Hl]; · iexact Hl
  isplitl [Hrl]; · iexact Hrl
  isplitl [Hrr]; · iexact Hrr
  isplitl [Hv0]; · iexact Hv0
  isplitl [Hv1]; · iexact Hv1
  iexact Hv2

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has the result array at what the library computes from the
    proof data and the argument array as launched. -/
theorem run_main : θ_run defs (onTc (τ := τ) (main (F := F))) ⟨m, fun _ => 0, ρ⟩ (fun r => ∀ c : Dev nD,
      r.2.mem ((c.tc : Thread nD τ).loc main_v2) = (dats m 0 c).arrAt 5 cfg0.N
      ∧ r.2.mem ((c.tc : Thread nD τ).loc main_arg0) = m ((c.tc : Thread nD τ).loc main_arg0)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      dsimp only [dats]
      iintro -; iempintro)
    (hout := fun c => by
      rw [scopedRest0_eq]
      iintro -
      isplitr <;> iempintro)
    (QY := fun _ _ => True)
    (hY := fun c s' => by
      iintro ⟨-, -, HSI⟩; imodintro
      isplitr; · ipureintro; trivial
      iexact HSI)
    (hQ := fun s h c => ⟨(h c).1 5,
      ((h c).1 0).trans (((dats m 0 c).arrAt_in 0 rfl _).trans ((A_eq m c 0).trans (V_main_arg0 m c)))⟩)

/-- The frame claim's statement at any float instance: @main runs and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Hand

end
-- ==== Proof.KernelIdealFrame.lean ====
/-
  The frame of the idealized kernel program: @main runs (terminates, nothing faulting), its result array ends at
  what the pipeline's proof data computes and its argument array ends unchanged.

  The one pallas_call hands the argument array to three input windows (a block of four rows and the single rows
  before and after it), so the launch is the one for windows that share an array: the argument array's full
  share is split three ways among them. The body stores its whole output block once, so what it leaves in the
  output window's buffer is the stored payload itself, a function of the five input blocks.
-/
import proofs.«135130_j32341103739184_2_alg».proof.Proof.Gen.KernelIdeal.Launch
import proofs.«135130_j32341103739184_2_alg».proof.Proof.Gen.KernelIdeal.Skeleton
import proofs.«135130_j32341103739184_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the four host operations (two
    constants and the two reductions of the argument array). -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place: where the window is not
    fetched its block index has not moved since the point before. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place: where the window is not
    fetched its block index has not moved since the point before. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place: where the window is not
    fetched its block index has not moved since the point before. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place: where the window is not
    fetched its block index has not moved since the point before. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place: where the window is not
    fetched its block index has not moved since the point before. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## Loads and the one store through whole-buffer rectangles -/

theorem zeros5 : (![0, 0, 0, 0, 0] : Fin 5 → Nat) = fun _ => 0 := funext fun a => by fin_cases a <;> rfl
theorem zeros1 : (![0] : Fin 1 → Nat) = fun _ => 0 := funext fun a => by fin_cases a <;> rfl

/-- A load through the whole-shape rectangle reads the buffer's contents. -/
theorem readAt_whole_a {κ : Kind} {sp : Space} (v : View sig κ sp S1x4x4x256x256 .f32) (f : v.ty.Contents (Elt F)) :
    v.readAt (Elt F) (Rect.unit (s := S1x4x4x256x256) ![0, 0, 0, 0, 0] S1x4x4x256x256.size inb_S1x4x4x256x256_S1x4x4x256x256_0_0_0_0_0).toLoadRect f
      = v.read (Elt F) f :=
  View.ld_unit_zero (S := S1x4x4x256x256) zeros5 inb_S1x4x4x256x256_S1x4x4x256x256_0_0_0_0_0 _
theorem readAt_whole_b {κ : Kind} {sp : Space} (v : View sig κ sp S1x4x1x256x256 .f32) (f : v.ty.Contents (Elt F)) :
    v.readAt (Elt F) (Rect.unit (s := S1x4x1x256x256) ![0, 0, 0, 0, 0] S1x4x1x256x256.size inb_S1x4x1x256x256_S1x4x1x256x256_0_0_0_0_0).toLoadRect f
      = v.read (Elt F) f :=
  View.ld_unit_zero (S := S1x4x1x256x256) zeros5 inb_S1x4x1x256x256_S1x4x1x256x256_0_0_0_0_0 _
theorem readAt_whole_c {κ : Kind} {sp : Space} (v : View sig κ sp S4 .f32) (f : v.ty.Contents (Elt F)) :
    v.readAt (Elt F) (Rect.unit (s := S4) ![0] S4.size inb_S4_S4_0).toLoadRect f = v.read (Elt F) f :=
  View.ld_unit_zero (S := S4) zeros1 inb_S4_S4_0 _

/-- The rectangle of the body's one store: the whole output block. -/
abbrev rOut : Rect S1x4x4x256x256 :=
  Rect.unit (s := S1x4x4x256x256) ![0, 0, 0, 0, 0] S1x4x4x256x256.size inb_S1x4x4x256x256_S1x4x4x256x256_0_0_0_0_0

/-- It covers the block. -/
theorem coverOut (w : Vec F S1x4x4x256x256 .f32) (y : S1x4x4x256x256.Idx) :
    ∃ pc ∈ ([⟨rOut, w⟩] : List (View.Piece (Elt F) S1x4x4x256x256 .f32)), y ∈ pc.1.set :=
  ⟨⟨rOut, w⟩, List.mem_singleton_self _,
    View.mem_set_unit_zero (S := S1x4x4x256x256) zeros5 inb_S1x4x4x256x256_S1x4x4x256x256_0_0_0_0_0 y⟩

/-- One store through the whole-shape rectangle leaves its payload, whatever the buffer held. -/
theorem read_store_whole {κ : Kind} {sp : Space} (v : View sig κ sp S1x4x4x256x256 .f32) (f : v.ty.Contents (Elt F))
    (w : Vec F S1x4x4x256x256 .f32) :
    v.read (Elt F) (v.writes (Elt F) f [⟨rOut, w⟩]) = w :=
  (View.read_writes_eq_canon v f [⟨rOut, w⟩] (coverOut w)).trans
    (View.canon_unit_zero (S := S1x4x4x256x256) zeros5 inb_S1x4x4x256x256_S1x4x4x256x256_0_0_0_0_0 w)

/-! ## What the body leaves in the output window's buffer -/

/-- The output block the body stores at grid point `i`, from the five input blocks: the four-row block `x0`, the
    rows before and after it `x1`, `x2` (used only off the first and the last row block, the two comparisons), and
    the per-channel minimum and maximum `x3`, `x4`. -/
def outBlk (i : grid0.Coords) (x0 : Vec F S1x4x4x256x256 .f32) (x1 x2 : Vec F S1x4x1x256x256 .f32) (x3 x4 : Vec F S4 .f32) :
    Vec F S1x4x4x256x256 .f32 :=
  k0_pay1 (k0_pay8 (Scalar.cmpi .sgt (BitVec.ofNat 32 (i 1).val) 0#32) (Scalar.cmpi .slt (BitVec.ofNat 32 (i 1).val) 15#32)
    (k0_pay4 x3 x4 x0) (k0_pay5 x3 x4 x0) (k0_pay6 x3 x4 x1) (k0_pay7 x3 x4 x2))

/-! ## The body's triple -/

set_option maxHeartbeats 1000000 in
/-- The kernel body on whole staging memrefs, the inputs' at read contents and the output's at anything, runs to the
    continuation holding the inputs' as they were and the output's at `outBlk` of the inputs': five loads through
    whole-buffer rectangles, an unused load of the output buffer, and one store of the whole output block. -/
theorem sound_kernel (c : Dev nD) (E : Set ℕ) (i : grid0.Coords)
    (arg2 : Memref sig .tc .vmem S1x4x4x256x256 .f32) (harg2 : arg2.IsWhole) (arg3 : Memref sig .tc .vmem S1x4x1x256x256 .f32) (harg3 : arg3.IsWhole)
    (arg4 : Memref sig .tc .vmem S1x4x1x256x256 .f32) (harg4 : arg4.IsWhole) (arg5 : Memref sig .tc .vmem S4 .f32) (harg5 : arg5.IsWhole)
    (arg6 : Memref sig .tc .vmem S4 .f32) (harg6 : arg6.IsWhole) (arg7 : Memref sig .tc .vmem S1x4x4x256x256 .f32) (harg7 : arg7.IsWhole)
    (x0 : Vec F S1x4x4x256x256 .f32) (x1 x2 : Vec F S1x4x1x256x256 .f32) (x3 x4 : Vec F S4 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (outBlk i x0 x1 x2 x3 x4)) -∗ K ⟨⟩))
      ⊢ wp frame (wpE (defs₀ (F := F)) Variants.none c none) E
          (cc0__fused_kernel i arg2 harg2 arg3 harg3 arg4 harg4 arg5 harg5 arg6 harg6 arg7 harg7) K := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  sl_unfold_run_names
  rw [read_store_whole, readAt_whole_a, readAt_whole_b, readAt_whole_b, readAt_whole_c, readAt_whole_c]
  rfl

/-! ## The pipeline's proof data -/

/-- The proof data of the one pipeline on core `c`: the arrays as the region finds them; after the body at point
    `t` each input's buffer at its block and the output's at `outBlk` of the input blocks; no invariant carried
    between points; nothing owed. The three windows on the argument array hold disjoint parts of its full share
    that add up to it; the other inputs are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (grid0.coords t) (iblk m c 0 t) (iblk m c 1 t) (iblk m c 2 t) (iblk m c 3 t) (iblk m c 4 t)
  Φ _ := iprop(emp)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t
    = outBlk (grid0.coords t) (iblk m c 0 t) (iblk m c 1 t) (iblk m c 2 t) (iblk m c 3 t) (iblk m c 4 t) := by dsimp only [dats]

/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d

/-- The share each window holds of its array. -/
theorem share0 (c : Dev nD) : (dats m 0 c).share 0 = fullShare.left := by
  unfold Dat.share; rw [if_neg (show ¬ ((cfg0.win 0).isOut = true) from Bool.false_ne_true)]; dsimp only [dats]
theorem share1 (c : Dev nD) : (dats m 0 c).share 1 = fullShare.right.left := by
  unfold Dat.share; rw [if_neg (show ¬ ((cfg0.win 1).isOut = true) from Bool.false_ne_true)]; dsimp only [dats]
theorem share2 (c : Dev nD) : (dats m 0 c).share 2 = fullShare.right.right := by
  unfold Dat.share; rw [if_neg (show ¬ ((cfg0.win 2).isOut = true) from Bool.false_ne_true)]; dsimp only [dats]
theorem share3 (c : Dev nD) : (dats m 0 c).share 3 = fullShare := by
  unfold Dat.share; rw [if_neg (show ¬ ((cfg0.win 3).isOut = true) from Bool.false_ne_true)]; dsimp only [dats]
theorem share4 (c : Dev nD) : (dats m 0 c).share 4 = fullShare := by
  unfold Dat.share; rw [if_neg (show ¬ ((cfg0.win 4).isOut = true) from Bool.false_ne_true)]; dsimp only [dats]
theorem share5 (c : Dev nD) : (dats m 0 c).share 5 = fullShare := by
  unfold Dat.share; rw [if_pos (show (cfg0.win 5).isOut = true from rfl)]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: the argument array's share split three ways -/

/-- The distinct arrays behind the six windows: the argument, the two reductions, the result. -/
theorem arrRefs_eq : Finset.univ.image (Pipeline.arrRef spec0) = [main_arg0, main_v0, main_v1, main_v2].toFinset := by decide

/-- Window `w`'s array at entry, held whole at the window's share. -/
theorem arr_entry (c : Dev nD) (w : Fin cfg0.W) (q : PosShare TreeShare) (hq : (dats m 0 c).share w = q) :
    ((cfg0.win w).arr.view.loc (c : Thread nD τ) ↦[(cfg0.win w).arr.view.set]{(dats m 0 c).share w} (dats m 0 c).arrAt w 0 : sProp 𝕄)
      = (((c : Thread nD τ).loc (Pipeline.arrRef spec0 w)) ↦{q} V m c (Pipeline.arrRef spec0 w)) := by
  rw [(arr_whole0 w).set_eq_univ, hq]; rfl

/-- The proof data's arrays at entry, window by window. -/
theorem arrays_entry (c : Dev nD) : ((dats m 0 c).arrays ((dats m 0 c).arrAt · 0) : sProp 𝕄)
    = iprop((((c : Thread nD τ).loc main_arg0) ↦{fullShare.left} V m c main_arg0)
        ∗ (((c : Thread nD τ).loc main_arg0) ↦{fullShare.right.left} V m c main_arg0)
        ∗ (((c : Thread nD τ).loc main_arg0) ↦{fullShare.right.right} V m c main_arg0)
        ∗ (((c : Thread nD τ).loc main_v0) ↦{fullShare} V m c main_v0)
        ∗ (((c : Thread nD τ).loc main_v1) ↦{fullShare} V m c main_v1)
        ∗ (((c : Thread nD τ).loc main_v2) ↦{fullShare} V m c main_v2)) := by
  unfold Dat.arrays
  rw [bigSep_W0]
  exact congrArg₂ BI.sep (arr_entry m c 0 _ (share0 m c)) (congrArg₂ BI.sep (arr_entry m c 1 _ (share1 m c))
    (congrArg₂ BI.sep (arr_entry m c 2 _ (share2 m c)) (congrArg₂ BI.sep (arr_entry m c 3 _ (share3 m c))
      (congrArg₂ BI.sep (arr_entry m c 4 _ (share4 m c)) (arr_entry m c 5 _ (share5 m c))))))

/-- The four buffers behind the windows' arrays, each whole at the full share. -/
theorem arrBufs_entry (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0)
          ∗ (((c : Thread nD τ).loc main_v0) ↦{fullShare} V m c main_v0)
          ∗ (((c : Thread nD τ).loc main_v1) ↦{fullShare} V m c main_v1)
          ∗ (((c : Thread nD τ).loc main_v2) ↦{fullShare} V m c main_v2)) := by
  unfold Pipeline.arrBufs
  exact bigSep_eq_bigSepL_of_eq [main_arg0, main_v0, main_v1, main_v2] arrRefs_eq (by decide) _

/-- The buffers behind the arrays make the proof data's arrays at entry: the argument array's full share is split
    into its left half and the two halves of its right half, one part per window reading it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_entry, arrays_entry]
  iintro ⟨Ha, Hv0, Hv1, Hv2⟩
  ihave Hs := (pointsTo_share (PosShare.mem_left_op_right fullShare)).1 $$ Ha
  icases Hs with ⟨Hl, Hr⟩
  ihave Hrs := (pointsTo_share (PosShare.mem_left_op_right fullShare.right)).1 $$ Hr
  icases Hrs with ⟨Hrl, Hrr⟩
  isplitl [Hl]; · iexact Hl
  isplitl [Hrl]; · iexact Hrl
  isplitl [Hrr]; · iexact Hrr
  isplitl [Hv0]; · iexact Hv0
  isplitl [Hv1]; · iexact Hv1
  iexact Hv2

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on
    the TensorCores terminates, and every final state has the result array at what the library computes from the
    proof data and the argument array as launched. -/
theorem run_main : θ_run defs (onTc (τ := τ) (main (F := F))) ⟨m, fun _ => 0, ρ⟩ (fun r => ∀ c : Dev nD,
      r.2.mem ((c.tc : Thread nD τ).loc main_v2) = (dats m 0 c).arrAt 5 cfg0.N
      ∧ r.2.mem ((c.tc : Thread nD τ).loc main_arg0) = m ((c.tc : Thread nD τ).loc main_arg0)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := BI.Entails.refl _)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      dsimp only [dats]
      iintro -; iempintro)
    (hout := fun c => by
      rw [scopedRest0_eq]
      iintro -
      isplitr <;> iempintro)
    (QY := fun _ _ => True)
    (hY := fun c s' => by
      iintro ⟨-, -, HSI⟩; imodintro
      isplitr; · ipureintro; trivial
      iexact HSI)
    (hQ := fun s h c => ⟨(h c).1 5,
      ((h c).1 0).trans (((dats m 0 c).arrAt_in 0 rfl _).trans ((A_eq m c 0).trans (V_main_arg0 m c)))⟩)

/-- The frame claim's statement at any float instance: @main runs and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Hand

end
-- ==== Proof.Boundary.lean ====
/-
  The function both programs compute, stated once over the extended reals and over coordinates.

  An entry of the array `x : [2, 4, 64, 256, 256]` is ON when its per-channel normalisation
  `(x - lo c) / (hi c - lo c)` exceeds one half (`lo`, `hi` the channel's extremes, here any two
  vectors of length 4). The result at an index is `[some entry of the same batch and channel within one
  step along each of the last three axes is ON] - [the entry itself is ON]`, the brackets read as 1 and 0:
  the 3×3×3 dilation of the 0/1 mask less the mask.
-/
import Idealize.ShloMosaic.PureOps.Ideal
import Idealize.ShloMosaic.Lib.ValueIdx

noncomputable section

namespace Cert.Boundary

open Idealize.ShloMosaic Idealize.ShloMosaic.ValueIdx

/-- The array's shape and the shape of a per-channel vector. -/
abbrev Arr : Shape := ⟨5, ![2, 4, 64, 256, 256]⟩
abbrev Chan : Shape := ⟨1, ![4]⟩

/-- One half, as the f32 word both programs spell it. -/
def half : EReal := Ideal.ofBits .f32 0x3F000000#32

/-- The entry at `(b, c, d, h, w)` is ON: its normalisation within channel `c` exceeds one half. -/
def On (x : Arr.Idx → EReal) (lo hi : Chan.Idx → EReal) (b : Fin 2) (c : Fin 4) (d : Fin 64) (h w : Fin 256) : Prop :=
  half < Ideal.div (x (ix5 b c d h w) - lo (ix1 c)) (hi (ix1 c) - lo (ix1 c))

/-- Two coordinates of one axis are at most one step apart. -/
def Near {n : Nat} (a a' : Fin n) : Prop := a'.val ≤ a.val + 1 ∧ a.val ≤ a'.val + 1

/-- Some entry of the 3×3×3 neighbourhood of `(d, h, w)` (cut off at the array's faces) is ON. -/
def Dil (x : Arr.Idx → EReal) (lo hi : Chan.Idx → EReal) (b : Fin 2) (c : Fin 4) (d : Fin 64) (h w : Fin 256) : Prop :=
  ∃ (d' : Fin 64) (h' w' : Fin 256), Near d d' ∧ Near h h' ∧ Near w w' ∧ On x lo hi b c d' h' w'

open Classical in
/-- A proposition as the number 1 or 0. -/
def ind (P : Prop) : EReal := if P then 1 else 0

/-- The boundary map: the dilated mask less the mask. -/
def boundary (x : Arr.Idx → EReal) (lo hi : Chan.Idx → EReal) : Arr.Idx → EReal := fun j =>
  ind (Dil x lo hi (j 0) (j 1) (j 2) (j 3) (j 4)) - ind (On x lo hi (j 0) (j 1) (j 2) (j 3) (j 4))

theorem ind_true {P : Prop} (h : P) : ind P = 1 := by unfold ind; exact if_pos h
theorem ind_false {P : Prop} (h : ¬P) : ind P = 0 := by unfold ind; exact if_neg h

theorem ind_congr {P Q : Prop} (h : P ↔ Q) : ind P = ind Q := by rw [propext h]

/-- The larger of two brackets is the bracket of the disjunction. -/
theorem max_ind (P Q : Prop) : max (ind P) (ind Q) = ind (P ∨ Q) := by
  by_cases hP : P <;> by_cases hQ : Q <;>
    simp [ind_true, ind_false, hP, hQ]

/-- Zero is the bracket of a falsehood. -/
theorem ind_False : ind False = 0 := ind_false id

end Cert.Boundary

end
-- ==== Proof.Brackets.lean ====
/-
  Brackets of propositions as they arise from the programs' words: a float comparison widened to a word and
  converted back to a float is the bracket of the comparison; a select between zero and a bracket is a bracket;
  and the three-tap neighbourhood of a coordinate of an axis of 256, written with the wrap-around a rotation
  gives and the two edge tests that cancel the wrap, is "within one step".
-/
import Idealize.ShloMosaic.PureOps.Ideal
import Idealize.ShloMosaic.Lib.ValueIdx
import proofs.«135130_j32341103739184_2_alg».proof.Proof.Boundary

noncomputable section

namespace Cert.Boundary

open Idealize.ShloMosaic Idealize.ShloMosaic.ValueIdx

/-- `a > t` as a one-bit word, widened to 32 bits and read as a signed integer, is the bracket `[t < a]`. -/
theorem sitofp_ogt (a t : EReal) :
    (FloatOps.sitofp (F := Ideal) .f32 ((FloatOps.cmpf (F := Ideal) (φ := .f32) .ogt a t).setWidth 32) : EReal) = ind (t < a) := by
  show ((((Ideal.cmp .ogt a t).setWidth 32).toInt : ℝ) : EReal) = _
  unfold Ideal.cmp
  by_cases h : t < a
  · rw [ind_true h]; simp [h]
  · rw [ind_false h]; simp [h]

/-- The zero word of bf16 is zero. -/
theorem ofBits_bf16_zero : Ideal.ofBits .bf16 0x0000#16 = 0 := by simp [Ideal.ofBits, Ideal.ieee]

/-- A select on a one-bit word that is `1` exactly when `C` holds. -/
theorem select_ind_left {b : BitVec 1} {C : Prop} (hb : b = 1 ↔ C) (P : Prop) :
    Scalar.select b (ind P) (0 : EReal) = ind (C ∧ P) := by
  unfold Scalar.select
  by_cases hC : C
  · rw [if_pos (hb.mpr hC)]; exact ind_congr ⟨fun h => ⟨hC, h⟩, fun h => h.2⟩
  · rw [if_neg (fun h => hC (hb.mp h)), ind_false (fun h => hC h.1)]

theorem select_ind_right {b : BitVec 1} {C : Prop} (hb : b = 1 ↔ C) (P : Prop) :
    Scalar.select b (0 : EReal) (ind P) = ind (¬C ∧ P) := by
  unfold Scalar.select
  by_cases hC : C
  · rw [if_pos (hb.mpr hC), ind_false (fun h => h.1 hC)]
  · rw [if_neg (fun h => hC (hb.mp h))]; exact ind_congr ⟨fun h => ⟨hC, h⟩, fun h => h.2⟩

/-- The coordinate one step down an axis of 256, around the end (what a rotation by 1 reads). -/
abbrev stepDown (h : Fin 256) : Fin 256 := ⟨(h.val + 256 - 1 % 256) % 256, Nat.mod_lt _ (by decide)⟩
/-- The coordinate one step up, around the end (what a rotation by 255 reads). -/
abbrev stepUp (h : Fin 256) : Fin 256 := ⟨(h.val + 256 - 255 % 256) % 256, Nat.mod_lt _ (by decide)⟩

/-- Three taps along an axis of 256 with the wrapped ends cancelled are the coordinates within one step. -/
theorem three_taps (Z : Fin 256 → Prop) (h : Fin 256) :
    (((¬ h.val = 0 ∧ Z (stepDown h)) ∨ Z h) ∨ (¬ h.val = 255 ∧ Z (stepUp h))) ↔ ∃ h', Near h h' ∧ Z h' := by
  constructor
  · rintro ((⟨h0, hz⟩ | hz) | ⟨h0, hz⟩)
    · exact ⟨stepDown h, ⟨by show (h.val + 256 - 1 % 256) % 256 ≤ h.val + 1; omega, by show h.val ≤ (h.val + 256 - 1 % 256) % 256 + 1; omega⟩, hz⟩
    · exact ⟨h, ⟨by omega, by omega⟩, hz⟩
    · exact ⟨stepUp h, ⟨by show (h.val + 256 - 255 % 256) % 256 ≤ h.val + 1; have := h.isLt; omega, by show h.val ≤ (h.val + 256 - 255 % 256) % 256 + 1; have := h.isLt; omega⟩, hz⟩
  · rintro ⟨h', ⟨h1, h2⟩, hz⟩
    have hlt := h.isLt
    have hlt' := h'.isLt
    rcases Nat.lt_trichotomy h'.val h.val with hl | he | hg
    · left; left
      refine ⟨by omega, ?_⟩
      have : stepDown h = h' := Fin.ext (by show (h.val + 256 - 1 % 256) % 256 = h'.val; omega)
      rw [this]; exact hz
    · left; right
      have : h = h' := Fin.ext he.symm
      rw [this]; exact hz
    · right
      refine ⟨by omega, ?_⟩
      have : stepUp h = h' := Fin.ext (by show (h.val + 256 - 255 % 256) % 256 = h'.val; omega)
      rw [this]; exact hz

end Cert.Boundary

end
-- ==== Proof.Taps.lean ====
/-
  A three-tap maximum along one of the two long axes of a [4, 4, 256, 256] vector of brackets, as the kernel
  spells it: the vector rotated one step each way around the axis, the wrapped entries replaced by zero where
  the axis coordinate (an iota) is at its end, and the three maximised. At an index it is the bracket of
  "some entry within one step along that axis holds".
-/
import Idealize.ShloMosaic.PureOps.Ideal
import Idealize.ShloMosaic.Lib.ValueIdx
import Idealize.ShloMosaic.Lib.Pipeline.Value
import Idealize.ShloMosaic.Lib.KernelVsHost
import proofs.«135130_j32341103739184_2_alg».proof.Proof.Brackets

noncomputable section

namespace Cert.Boundary

open Idealize.ShloMosaic Idealize.ShloMosaic.ValueIdx

/-- The shape of the kernel's working vectors. -/
abbrev Blk4 : Shape := ⟨4, ![4, 4, 256, 256]⟩

/-- An integer equality test of two small naturals as 32-bit words answers `1` exactly when they are equal. -/
theorem cmpi_eq_one_iff (n k : Nat) (hn : n < 2 ^ 32) (hk : k < 2 ^ 32) :
    IntOp.cmpi .eq (BitVec.ofNat 32 n) (BitVec.ofNat 32 k) = 1 ↔ n = k := by
  unfold IntOp.cmpi
  show BitVec.ofBool (BitVec.ofNat 32 n == BitVec.ofNat 32 k) = 1 ↔ n = k
  by_cases h : n = k
  · subst h; simp
  · have hne : BitVec.ofNat 32 n ≠ BitVec.ofNat 32 k := fun e => by
      have := congrArg BitVec.toNat e
      simp only [BitVec.toNat_ofNat] at this
      rw [Nat.mod_eq_of_lt hn, Nat.mod_eq_of_lt hk] at this
      exact h this
    rw [beq_eq_false_iff_ne.mpr hne]
    exact ⟨fun e => absurd e (by decide), fun e => absurd e h⟩

theorem cmpi_apply {s : Shape} {w : Nat} (p : CmpIPredicate) (x y : IVec s w) (i : s.Idx) : cmpi p x y i = IntOp.cmpi p (x i) (y i) := rfl

variable (z : FVec Ideal Blk4 .bf16) (Z : Fin 4 → Fin 4 → Fin 256 → Fin 256 → Prop)

/-- Three taps along axis 2. -/
theorem taps_axis2 (hz : ∀ c dl h w, z (ix4 c dl h w) = ind (Z c dl h w))
    (hr : Blk4.Rotates 2 none) (hi : Blk4.Iotas .tc 32 [2]) (c dl : Fin 4) (h w : Fin 256) :
    maximumf (F := Ideal) (φ := .bf16)
      (maximumf (select (cmpi .eq (iota .tc Blk4 32 [2] hi) (broadcast Blk4 0#32)) (broadcast Blk4 (Scalar.ofBits (F := Ideal) .bf16 0x0000#16)) (dynamicRotate 2 1#32 none z hr)) z)
      (select (cmpi .eq (iota .tc Blk4 32 [2] hi) (broadcast Blk4 255#32)) (broadcast Blk4 (Scalar.ofBits (F := Ideal) .bf16 0x0000#16)) (dynamicRotate 2 255#32 none z hr))
      (ix4 c dl h w)
    = ind (∃ h', Near h h' ∧ Z c dl h' w) := by
  rw [maximumf_apply, maximumf_apply, select_apply, select_apply, cmpi_apply, cmpi_apply, iota_single_apply,
    dynamicRotate_apply 2 1#32 z hr (ix4 c dl h w) (ix4 c dl (stepDown h) w) (fun b => by
      match b with | ⟨0, _⟩ => rfl | ⟨1, _⟩ => rfl | ⟨2, _⟩ => rfl | ⟨3, _⟩ => rfl),
    dynamicRotate_apply 2 255#32 z hr (ix4 c dl h w) (ix4 c dl (stepUp h) w) (fun b => by
      match b with | ⟨0, _⟩ => rfl | ⟨1, _⟩ => rfl | ⟨2, _⟩ => rfl | ⟨3, _⟩ => rfl),
    hz, hz, hz]
  show max (max (Scalar.select (IntOp.cmpi .eq (BitVec.ofNat 32 _) (BitVec.ofNat 32 0)) (Ideal.ofBits .bf16 0x0000#16) _) _) (Scalar.select (IntOp.cmpi .eq (BitVec.ofNat 32 _) (BitVec.ofNat 32 255)) (Ideal.ofBits .bf16 0x0000#16) _) = _
  rw [ofBits_bf16_zero,
    select_ind_right (cmpi_eq_one_iff h.val 0 (by have := h.isLt; omega) (by decide)),
    select_ind_right (cmpi_eq_one_iff h.val 255 (by have := h.isLt; omega) (by decide)),
    max_ind, max_ind]
  exact ind_congr (three_taps (fun h' => Z c dl h' w) h)

/-- Three taps along axis 3. -/
theorem taps_axis3 (hz : ∀ c dl h w, z (ix4 c dl h w) = ind (Z c dl h w))
    (hr : Blk4.Rotates 3 none) (hi : Blk4.Iotas .tc 32 [3]) (c dl : Fin 4) (h w : Fin 256) :
    maximumf (F := Ideal) (φ := .bf16)
      (maximumf (select (cmpi .eq (iota .tc Blk4 32 [3] hi) (broadcast Blk4 0#32)) (broadcast Blk4 (Scalar.ofBits (F := Ideal) .bf16 0x0000#16)) (dynamicRotate 3 1#32 none z hr)) z)
      (select (cmpi .eq (iota .tc Blk4 32 [3] hi) (broadcast Blk4 255#32)) (broadcast Blk4 (Scalar.ofBits (F := Ideal) .bf16 0x0000#16)) (dynamicRotate 3 255#32 none z hr))
      (ix4 c dl h w)
    = ind (∃ w', Near w w' ∧ Z c dl h w') := by
  rw [maximumf_apply, maximumf_apply, select_apply, select_apply, cmpi_apply, cmpi_apply, iota_single_apply,
    dynamicRotate_apply 3 1#32 z hr (ix4 c dl h w) (ix4 c dl h (stepDown w)) (fun b => by
      match b with | ⟨0, _⟩ => rfl | ⟨1, _⟩ => rfl | ⟨2, _⟩ => rfl | ⟨3, _⟩ => rfl),
    dynamicRotate_apply 3 255#32 z hr (ix4 c dl h w) (ix4 c dl h (stepUp w)) (fun b => by
      match b with | ⟨0, _⟩ => rfl | ⟨1, _⟩ => rfl | ⟨2, _⟩ => rfl | ⟨3, _⟩ => rfl),
    hz, hz, hz]
  show max (max (Scalar.select (IntOp.cmpi .eq (BitVec.ofNat 32 _) (BitVec.ofNat 32 0)) (Ideal.ofBits .bf16 0x0000#16) _) _) (Scalar.select (IntOp.cmpi .eq (BitVec.ofNat 32 _) (BitVec.ofNat 32 255)) (Ideal.ofBits .bf16 0x0000#16) _) = _
  rw [ofBits_bf16_zero,
    select_ind_right (cmpi_eq_one_iff w.val 0 (by have := w.isLt; omega) (by decide)),
    select_ind_right (cmpi_eq_one_iff w.val 255 (by have := w.isLt; omega) (by decide)),
    max_ind, max_ind]
  exact ind_congr (three_taps (fun w' => Z c dl h w') w)

/-- The three-tap maximum along axis 2 and along axis 3, as vectors. -/
def tapsH (hr : Blk4.Rotates 2 none) (hi : Blk4.Iotas .tc 32 [2]) : FVec Ideal Blk4 .bf16 :=
  maximumf (F := Ideal) (φ := .bf16)
    (maximumf (select (cmpi .eq (iota .tc Blk4 32 [2] hi) (broadcast Blk4 0#32)) (broadcast Blk4 (Scalar.ofBits (F := Ideal) .bf16 0x0000#16)) (dynamicRotate 2 1#32 none z hr)) z)
    (select (cmpi .eq (iota .tc Blk4 32 [2] hi) (broadcast Blk4 255#32)) (broadcast Blk4 (Scalar.ofBits (F := Ideal) .bf16 0x0000#16)) (dynamicRotate 2 255#32 none z hr))

def tapsW (hr : Blk4.Rotates 3 none) (hi : Blk4.Iotas .tc 32 [3]) : FVec Ideal Blk4 .bf16 :=
  maximumf (F := Ideal) (φ := .bf16)
    (maximumf (select (cmpi .eq (iota .tc Blk4 32 [3] hi) (broadcast Blk4 0#32)) (broadcast Blk4 (Scalar.ofBits (F := Ideal) .bf16 0x0000#16)) (dynamicRotate 3 1#32 none z hr)) z)
    (select (cmpi .eq (iota .tc Blk4 32 [3] hi) (broadcast Blk4 255#32)) (broadcast Blk4 (Scalar.ofBits (F := Ideal) .bf16 0x0000#16)) (dynamicRotate 3 255#32 none z hr))

theorem tapsH_apply (hz : ∀ c dl h w, z (ix4 c dl h w) = ind (Z c dl h w))
    (hr : Blk4.Rotates 2 none) (hi : Blk4.Iotas .tc 32 [2]) (c dl : Fin 4) (h w : Fin 256) :
    tapsH z hr hi (ix4 c dl h w) = ind (∃ h', Near h h' ∧ Z c dl h' w) := taps_axis2 z Z hz hr hi c dl h w

theorem tapsW_apply (hz : ∀ c dl h w, z (ix4 c dl h w) = ind (Z c dl h w))
    (hr : Blk4.Rotates 3 none) (hi : Blk4.Iotas .tc 32 [3]) (c dl : Fin 4) (h w : Fin 256) :
    tapsW z hr hi (ix4 c dl h w) = ind (∃ w', Near w w' ∧ Z c dl h w') := taps_axis3 z Z hz hr hi c dl h w

end Cert.Boundary

end
-- ==== Proof.PadD.lean ====
/-
  The three-tap maximum along the depth axis of a block, as the kernel spells it: the block of four rows with
  one row laid before it and one after it (a column of six), cut three times at offsets 0, 1, 2 and the three
  cuts maximised. For vectors of brackets the result at depth `dl` is the bracket of "position `dl`, `dl + 1`
  or `dl + 2` of the column of six holds".
-/
import Idealize.ShloMosaic.PureOps.Ideal
import Idealize.ShloMosaic.Lib.ValueIdx
import Idealize.ShloMosaic.Lib.Pipeline.Value
import proofs.«135130_j32341103739184_2_alg».proof.Proof.Taps

noncomputable section

namespace Cert.Boundary

open Idealize.ShloMosaic Idealize.ShloMosaic.ValueIdx

/-- One row of a block, and the block with a row before and a row after. -/
abbrev Row4 : Shape := ⟨4, ![4, 1, 256, 256]⟩
abbrev Col6 : Shape := ⟨4, ![4, 6, 256, 256]⟩

variable (bef aft : FVec Ideal Row4 .bf16) (cen : FVec Ideal Blk4 .bf16)
variable (Bf Af : Fin 4 → Fin 256 → Fin 256 → Prop) (Cn : Fin 4 → Fin 4 → Fin 256 → Fin 256 → Prop)

/-- What holds at position `e` of the column of six: the row before at 0, the row after at 5, the block between. -/
def col (c : Fin 4) (e : Fin 6) (h w : Fin 256) : Prop :=
  if e.val = 0 then Bf c h w else if h5 : e.val = 5 then Af c h w else Cn c ⟨e.val - 1, by have := e.isLt; omega⟩ h w

/-- The column of six read at an index. -/
theorem column_apply (hb : ∀ c h w, bef (ix4 c 0 h w) = ind (Bf c h w)) (ha : ∀ c h w, aft (ix4 c 0 h w) = ind (Af c h w))
    (hcn : ∀ c dl h w, cen (ix4 c dl h w) = ind (Cn c dl h w))
    (hc : Shape.Concatenates [Row4, Blk4, Row4] Col6 1) (c : Fin 4) (e : Fin 6) (h w : Fin 256) :
    concatenate Col6 1 [⟨Row4, bef⟩, ⟨Blk4, cen⟩, ⟨Row4, aft⟩] hc (ix4 c e h w) = ind (col Bf Af Cn c e h w) := by
  unfold col
  by_cases h0 : e.val = 0
  · rw [if_pos h0, ← hb]
    exact concatenate_apply_piece 1 [⟨Row4, bef⟩, ⟨Blk4, cen⟩, ⟨Row4, aft⟩] hc (ix4 c e h w) 0 (by show (0 : ℕ) < 3; omega) Row4 bef rfl rfl 0 rfl (ix4 c 0 h w)
      (fun b hb' => by match b with | ⟨0, _⟩ => rfl | ⟨1, _⟩ => exact absurd rfl hb' | ⟨2, _⟩ => rfl | ⟨3, _⟩ => rfl)
      (by show 0 + 0 = e.val; omega)
  · rw [if_neg h0]
    by_cases h5 : e.val = 5
    · rw [dif_pos h5, ← ha]
      exact concatenate_apply_piece 1 [⟨Row4, bef⟩, ⟨Blk4, cen⟩, ⟨Row4, aft⟩] hc (ix4 c e h w) 2 (by show (2 : ℕ) < 3; omega) Row4 aft rfl rfl 5 rfl (ix4 c 0 h w)
        (fun b hb' => by match b with | ⟨0, _⟩ => rfl | ⟨1, _⟩ => exact absurd rfl hb' | ⟨2, _⟩ => rfl | ⟨3, _⟩ => rfl)
        (by show 5 + 0 = e.val; omega)
    · rw [dif_neg h5, ← hcn]
      exact concatenate_apply_piece 1 [⟨Row4, bef⟩, ⟨Blk4, cen⟩, ⟨Row4, aft⟩] hc (ix4 c e h w) 1 (by show (1 : ℕ) < 3; omega) Blk4 cen rfl rfl 1 rfl
        (ix4 c ⟨e.val - 1, by have := e.isLt; omega⟩ h w)
        (fun b hb' => by match b with | ⟨0, _⟩ => rfl | ⟨1, _⟩ => exact absurd rfl hb' | ⟨2, _⟩ => rfl | ⟨3, _⟩ => rfl)
        (by show 1 + (e.val - 1) = e.val; omega)

/-- A cut of the column of six at depth offset `o` read at an index. -/
theorem cut_apply (p : FVec Ideal Col6 .bf16) (o : Nat) (ho : o ≤ 2) (hs : Col6.Slices ![0, o, 0, 0] Blk4) (c dl : Fin 4) (h w : Fin 256) :
    extractStridedSlice Blk4 ![0, o, 0, 0] p hs (ix4 c dl h w) = p (ix4 c ⟨o + dl.val, by have := dl.isLt; omega⟩ h w) :=
  extractStridedSlice_apply _ p hs (ix4 c dl h w) (ix4 c ⟨o + dl.val, by have := dl.isLt; omega⟩ h w) (fun a => by
    match a with
    | ⟨0, _⟩ => show c.val = 0 + c.val; omega
    | ⟨1, _⟩ => rfl
    | ⟨2, _⟩ => show h.val = 0 + h.val; omega
    | ⟨3, _⟩ => show w.val = 0 + w.val; omega)

/-- The three cuts maximised, at an index. -/
theorem depth_taps (hb : ∀ c h w, bef (ix4 c 0 h w) = ind (Bf c h w)) (ha : ∀ c h w, aft (ix4 c 0 h w) = ind (Af c h w))
    (hcn : ∀ c dl h w, cen (ix4 c dl h w) = ind (Cn c dl h w))
    (hc : Shape.Concatenates [Row4, Blk4, Row4] Col6 1)
    (hs0 : Col6.Slices ![0, 0, 0, 0] Blk4) (hs1 : Col6.Slices ![0, 1, 0, 0] Blk4) (hs2 : Col6.Slices ![0, 2, 0, 0] Blk4)
    (c dl : Fin 4) (h w : Fin 256) :
    maximumf (F := Ideal) (φ := .bf16)
      (maximumf (extractStridedSlice Blk4 ![0, 0, 0, 0] (concatenate Col6 1 [⟨Row4, bef⟩, ⟨Blk4, cen⟩, ⟨Row4, aft⟩] hc) hs0)
        (extractStridedSlice Blk4 ![0, 1, 0, 0] (concatenate Col6 1 [⟨Row4, bef⟩, ⟨Blk4, cen⟩, ⟨Row4, aft⟩] hc) hs1))
      (extractStridedSlice Blk4 ![0, 2, 0, 0] (concatenate Col6 1 [⟨Row4, bef⟩, ⟨Blk4, cen⟩, ⟨Row4, aft⟩] hc) hs2)
      (ix4 c dl h w)
    = ind ((col Bf Af Cn c ⟨0 + dl.val, by have := dl.isLt; omega⟩ h w ∨ col Bf Af Cn c ⟨1 + dl.val, by have := dl.isLt; omega⟩ h w)
        ∨ col Bf Af Cn c ⟨2 + dl.val, by have := dl.isLt; omega⟩ h w) := by
  rw [maximumf_apply, maximumf_apply, cut_apply _ 0 (by omega), cut_apply _ 1 (by omega), cut_apply _ 2 (by omega),
    column_apply bef aft cen Bf Af Cn hb ha hcn, column_apply bef aft cen Bf Af Cn hb ha hcn,
    column_apply bef aft cen Bf Af Cn hb ha hcn, max_ind, max_ind]

/-- The three cuts of the column of six maximised, as a vector. -/
def tapsD (hc : Shape.Concatenates [Row4, Blk4, Row4] Col6 1)
    (hs0 : Col6.Slices ![0, 0, 0, 0] Blk4) (hs1 : Col6.Slices ![0, 1, 0, 0] Blk4) (hs2 : Col6.Slices ![0, 2, 0, 0] Blk4) : FVec Ideal Blk4 .bf16 :=
  maximumf (F := Ideal) (φ := .bf16)
    (maximumf (extractStridedSlice Blk4 ![0, 0, 0, 0] (concatenate Col6 1 [⟨Row4, bef⟩, ⟨Blk4, cen⟩, ⟨Row4, aft⟩] hc) hs0)
      (extractStridedSlice Blk4 ![0, 1, 0, 0] (concatenate Col6 1 [⟨Row4, bef⟩, ⟨Blk4, cen⟩, ⟨Row4, aft⟩] hc) hs1))
    (extractStridedSlice Blk4 ![0, 2, 0, 0] (concatenate Col6 1 [⟨Row4, bef⟩, ⟨Blk4, cen⟩, ⟨Row4, aft⟩] hc) hs2)

theorem tapsD_apply (hb : ∀ c h w, bef (ix4 c 0 h w) = ind (Bf c h w)) (ha : ∀ c h w, aft (ix4 c 0 h w) = ind (Af c h w))
    (hcn : ∀ c dl h w, cen (ix4 c dl h w) = ind (Cn c dl h w))
    (hc : Shape.Concatenates [Row4, Blk4, Row4] Col6 1)
    (hs0 : Col6.Slices ![0, 0, 0, 0] Blk4) (hs1 : Col6.Slices ![0, 1, 0, 0] Blk4) (hs2 : Col6.Slices ![0, 2, 0, 0] Blk4)
    (c dl : Fin 4) (h w : Fin 256) :
    tapsD bef aft cen hc hs0 hs1 hs2 (ix4 c dl h w)
    = ind ((col Bf Af Cn c ⟨0 + dl.val, by have := dl.isLt; omega⟩ h w ∨ col Bf Af Cn c ⟨1 + dl.val, by have := dl.isLt; omega⟩ h w)
        ∨ col Bf Af Cn c ⟨2 + dl.val, by have := dl.isLt; omega⟩ h w) :=
  depth_taps bef aft cen Bf Af Cn hb ha hcn hc hs0 hs1 hs2 c dl h w

/-- Some one of the three positions `dl`, `dl + 1`, `dl + 2` of the column of six holds. -/
def col3 (c dl : Fin 4) (h w : Fin 256) : Prop :=
  (col Bf Af Cn c ⟨0 + dl.val, by have := dl.isLt; omega⟩ h w ∨ col Bf Af Cn c ⟨1 + dl.val, by have := dl.isLt; omega⟩ h w)
    ∨ col Bf Af Cn c ⟨2 + dl.val, by have := dl.isLt; omega⟩ h w

theorem tapsD_col3 (hb : ∀ c h w, bef (ix4 c 0 h w) = ind (Bf c h w)) (ha : ∀ c h w, aft (ix4 c 0 h w) = ind (Af c h w))
    (hcn : ∀ c dl h w, cen (ix4 c dl h w) = ind (Cn c dl h w))
    (hc : Shape.Concatenates [Row4, Blk4, Row4] Col6 1)
    (hs0 : Col6.Slices ![0, 0, 0, 0] Blk4) (hs1 : Col6.Slices ![0, 1, 0, 0] Blk4) (hs2 : Col6.Slices ![0, 2, 0, 0] Blk4)
    (c dl : Fin 4) (h w : Fin 256) :
    tapsD bef aft cen hc hs0 hs1 hs2 (ix4 c dl h w) = ind (col3 Bf Af Cn c dl h w) :=
  depth_taps bef aft cen Bf Af Cn hb ha hcn hc hs0 hs1 hs2 c dl h w

end Cert.Boundary

end
-- ==== Proof.KernelPayload.lean ====
/-
  What the kernel's body stores, read at an index of the output block, over the extended reals.

  The body loads the block of four depth rows (`x0`), the row before it (`x1`), the row after it (`x2`) and the
  two per-channel vectors (`x3` the minima, `x4` the maxima). Each loaded entry is normalised within its channel
  and compared with one half; the rows outside the array (before the first block, after the last) are replaced by
  zero; the 0/1 block is maximised over three taps along depth, height and width in turn; the block's own 0/1
  values are subtracted. At the index `(c, dl, h, w)` of the block the stored value is therefore
  `[some entry within one step in depth, height and width is on] - [the entry is on]`.
-/
import proofs.«135130_j32341103739184_2_alg».proof.Proof.Gen.KernelIdeal.Skeleton
import proofs.«135130_j32341103739184_2_alg».proof.Proof.PadD
import Idealize.ShloMosaic.Lib.ValueLayout

noncomputable section

namespace Cert.KernelIdeal.Val

open Idealize.ShloMosaic Idealize.ShloMosaic.ValueIdx Cert.KernelIdeal Cert.KernelIdeal.Gen Cert.Boundary

variable (x3 x4 : Vec Ideal S4 .f32)

/-- The per-channel minima, stood up as a [4, 1, 1, 1] vector, read at a channel. -/
theorem pay2_apply (c : Fin 4) : k0_pay2 (F := Ideal) x3 (ix4 c 0 0 0) = x3 (ix1 c) := by
  unfold k0_pay2
  refine (shapeCast_apply _ _ (ix4 c (0 : Fin 1) (0 : Fin 1) (0 : Fin 1)) (ix1 c) ?_).trans ?_
  · rw [Shape.rowMajor_val_one, Shape.rowMajor_val_four]
    show c.val = ((c.val * 1 + 0) * 1 + 0) * 1 + 0
    omega
  · rw [shapeCast_self]

/-- The per-channel range (maximum less minimum), read at a channel. -/
theorem pay3_apply (c : Fin 4) : k0_pay3 (F := Ideal) x3 x4 (ix4 c 0 0 0) = x4 (ix1 c) - x3 (ix1 c) := by
  unfold k0_pay3
  rw [subf_apply, pay2_apply]
  congr 1
  refine (shapeCast_apply _ _ (ix4 c (0 : Fin 1) (0 : Fin 1) (0 : Fin 1)) (ix1 c) ?_).trans ?_
  · rw [Shape.rowMajor_val_one, Shape.rowMajor_val_four]
    show c.val = ((c.val * 1 + 0) * 1 + 0) * 1 + 0
    omega
  · rw [shapeCast_self]

/-- The normalisation of a value within channel `c`. -/
def nrm (c : Fin 4) (v : EReal) : EReal := Ideal.div (v - x3 (ix1 c)) (x4 (ix1 c) - x3 (ix1 c))

/-- The block's 0/1 values. -/
theorem pay4_apply (x0 : Vec Ideal S1x4x4x256x256 .f32) (c dl : Fin 4) (h w : Fin 256) :
    k0_pay4 (F := Ideal) x3 x4 x0 (ix4 c dl h w) = ind (half < nrm x3 x4 c (x0 (ix5 0 c dl h w))) := by
  have e1 : shapeCast S4x4x256x256 x0 Facts₀.shapeCasts_S1x4x4x256x256_S4x4x256x256 (ix4 c dl h w) = x0 (ix5 0 c dl h w) := by
    refine shapeCast_apply _ _ (ix4 c dl h w) (ix5 (0 : Fin 1) c dl h w) ?_
    rw [Shape.rowMajor_val_five, Shape.rowMajor_val_four]
    show ((((0 : ℕ) * 4 + c.val) * 4 + dl.val) * 256 + h.val) * 256 + w.val = ((c.val * 4 + dl.val) * 256 + h.val) * 256 + w.val
    omega
  have e2 : broadcastTo S4x4x256x256 (k0_pay2 (F := Ideal) x3) Facts₀.broadcasts_S4x1x1x1_S4x4x256x256 (ix4 c dl h w) = x3 (ix1 c) := by
    refine (broadcastTo_apply _ _ (ix4 c dl h w) (ix4 c (0 : Fin 1) (0 : Fin 1) (0 : Fin 1)) (fun a => ?_)).trans (pay2_apply x3 c)
    match a with | ⟨0, _⟩ => rfl | ⟨1, _⟩ => rfl | ⟨2, _⟩ => rfl | ⟨3, _⟩ => rfl
  have e3 : broadcastTo S4x4x256x256 (k0_pay3 (F := Ideal) x3 x4) Facts₀.broadcasts_S4x1x1x1_S4x4x256x256 (ix4 c dl h w) = x4 (ix1 c) - x3 (ix1 c) := by
    refine (broadcastTo_apply _ _ (ix4 c dl h w) (ix4 c (0 : Fin 1) (0 : Fin 1) (0 : Fin 1)) (fun a => ?_)).trans (pay3_apply x3 x4 c)
    match a with | ⟨0, _⟩ => rfl | ⟨1, _⟩ => rfl | ⟨2, _⟩ => rfl | ⟨3, _⟩ => rfl
  unfold k0_pay4
  rw [sitofp_apply, extui_apply, cmpf_apply, sitofp_ogt, divf_apply, subf_apply, e1, e2, e3]
  rfl

theorem pay5_apply (x0 : Vec Ideal S1x4x4x256x256 .f32) (c dl : Fin 4) (h w : Fin 256) :
    k0_pay5 (F := Ideal) x3 x4 x0 (ix4 c dl h w) = ind (half < nrm x3 x4 c (x0 (ix5 0 c dl h w))) := by
  unfold k0_pay5
  rw [truncf_apply, pay4_apply]

/-- A single row [1, 4, 1, 256, 256] viewed [4, 1, 256, 256], and the two channel vectors spread over it, at an index. -/
theorem row_cast (x : Vec Ideal S1x4x1x256x256 .f32) (c : Fin 4) (h w : Fin 256) :
    shapeCast S4x1x256x256 x Facts₀.shapeCasts_S1x4x1x256x256_S4x1x256x256 (ix4 c (0 : Fin 1) h w) = x (ix5 0 c 0 h w) := by
  refine shapeCast_apply _ _ (ix4 c (0 : Fin 1) h w) (ix5 (0 : Fin 1) c (0 : Fin 1) h w) ?_
  rw [Shape.rowMajor_val_five, Shape.rowMajor_val_four]
  show ((((0 : ℕ) * 4 + c.val) * 1 + 0) * 256 + h.val) * 256 + w.val = ((c.val * 1 + 0) * 256 + h.val) * 256 + w.val
  omega

theorem row_lo (c : Fin 4) (h w : Fin 256) :
    broadcastTo S4x1x256x256 (k0_pay2 (F := Ideal) x3) Facts₀.broadcasts_S4x1x1x1_S4x1x256x256 (ix4 c (0 : Fin 1) h w) = x3 (ix1 c) := by
  refine (broadcastTo_apply _ _ (ix4 c (0 : Fin 1) h w) (ix4 c (0 : Fin 1) (0 : Fin 1) (0 : Fin 1)) (fun a => ?_)).trans (pay2_apply x3 c)
  match a with | ⟨0, _⟩ => rfl | ⟨1, _⟩ => rfl | ⟨2, _⟩ => rfl | ⟨3, _⟩ => rfl

theorem row_range (c : Fin 4) (h w : Fin 256) :
    broadcastTo S4x1x256x256 (k0_pay3 (F := Ideal) x3 x4) Facts₀.broadcasts_S4x1x1x1_S4x1x256x256 (ix4 c (0 : Fin 1) h w) = x4 (ix1 c) - x3 (ix1 c) := by
  refine (broadcastTo_apply _ _ (ix4 c (0 : Fin 1) h w) (ix4 c (0 : Fin 1) (0 : Fin 1) (0 : Fin 1)) (fun a => ?_)).trans (pay3_apply x3 x4 c)
  match a with | ⟨0, _⟩ => rfl | ⟨1, _⟩ => rfl | ⟨2, _⟩ => rfl | ⟨3, _⟩ => rfl

/-- The 0/1 values of the row before the block. -/
theorem pay6_apply (x1 : Vec Ideal S1x4x1x256x256 .f32) (c : Fin 4) (h w : Fin 256) :
    k0_pay6 (F := Ideal) x3 x4 x1 (ix4 c 0 h w) = ind (half < nrm x3 x4 c (x1 (ix5 0 c 0 h w))) := by
  unfold k0_pay6
  rw [truncf_apply, sitofp_apply, extui_apply, cmpf_apply, sitofp_ogt, divf_apply, subf_apply, row_cast x1, row_lo x3, row_range x3 x4]
  rfl

/-- The normalisation of the row after the block (its comparison with one half comes later in the body). -/
theorem pay7_apply (x2 : Vec Ideal S1x4x1x256x256 .f32) (c : Fin 4) (h w : Fin 256) :
    k0_pay7 (F := Ideal) x3 x4 x2 (ix4 c 0 h w) = nrm x3 x4 c (x2 (ix5 0 c 0 h w)) := by
  unfold k0_pay7
  rw [divf_apply, subf_apply, row_cast x2, row_lo x3, row_range x3 x4]
  rfl

/-- A select between two whole vectors on one word, at an index. -/
theorem scalar_select_apply {s : Shape} {α : Type} (b : BitVec 1) (a z : s.Idx → α) (i : s.Idx) :
    (Scalar.select b a z) i = Scalar.select b (a i) (z i) := by
  unfold Scalar.select; split <;> rfl

section Stages

variable (v0 v1 : BitVec 1) (v18 : FVec Ideal S4x4x256x256 .f32) (v19 : FVec Ideal S4x4x256x256 .bf16)
  (v30 : FVec Ideal S4x1x256x256 .bf16) (v36 : FVec Ideal S4x1x256x256 .f32)

/-- The body's arithmetic after the loads is the three three-tap stages, depth then height then width, of the block
    between its two (possibly zeroed) neighbouring rows, less the block's own 0/1 values. -/
theorem pay8_eq :
    k0_pay8 (F := Ideal) v0 v1 v18 v19 v30 v36
      = subf (extf .f32 (tapsW (tapsH (tapsD
            (Scalar.select v0 v30 (broadcast S4x1x256x256 (Scalar.ofBits (F := Ideal) .bf16 0x0000#16)))
            (Scalar.select v1 (truncf .bf16 (sitofp .f32 (extui 32 (cmpf .ogt v36 (broadcast S4x1x256x256 (Scalar.ofBits (F := Ideal) .f32 0x3F000000#32))) Facts₀.natLt_1_32)) Facts₀.bitsLt_bf16_f32)
              (broadcast S4x1x256x256 (Scalar.ofBits (F := Ideal) .bf16 0x0000#16)))
            v19 Facts₀.concatenates_S4x1x256x256_S4x4x256x256_S4x1x256x256_S4x6x256x256_d1
            Facts₀.slices_S4x6x256x256_o0_0_0_0_S4x4x256x256 Facts₀.slices_S4x6x256x256_o0_1_0_0_S4x4x256x256 Facts₀.slices_S4x6x256x256_o0_2_0_0_S4x4x256x256)
          Facts₀.rotates_S4x4x256x256_d2 Facts₀.iota_S4x4x256x256_d2_w32) Facts₀.rotates_S4x4x256x256_d3 Facts₀.iota_S4x4x256x256_d3_w32) Facts₀.bitsLt_bf16_f32) v18 := rfl

variable (V0 V1 : Prop) (Cn : Fin 4 → Fin 4 → Fin 256 → Fin 256 → Prop) (Bf Af : Fin 4 → Fin 256 → Fin 256 → Prop)

/-- At an index: the bracket of "some entry within one step in width, height and depth holds" less the entry's own. -/
theorem pay8_apply (hv0 : v0 = 1 ↔ V0) (hv1 : v1 = 1 ↔ V1)
    (h18 : ∀ c dl h w, v18 (ix4 c dl h w) = ind (Cn c dl h w)) (h19 : ∀ c dl h w, v19 (ix4 c dl h w) = ind (Cn c dl h w))
    (h30 : ∀ c h w, v30 (ix4 c 0 h w) = ind (Bf c h w)) (h36 : ∀ c h w, (half < v36 (ix4 c 0 h w)) ↔ Af c h w)
    (c dl : Fin 4) (h w : Fin 256) :
    k0_pay8 (F := Ideal) v0 v1 v18 v19 v30 v36 (ix4 c dl h w)
      = ind (∃ w', Near w w' ∧ ∃ h', Near h h' ∧
          col3 (fun c h w => V0 ∧ Bf c h w) (fun c h w => V1 ∧ Af c h w) Cn c dl h' w')
        - ind (Cn c dl h w) := by
  rw [pay8_eq, subf_apply, extf_apply, h18]
  congr 1
  refine tapsW_apply _ (fun c dl h w => ∃ h', Near h h' ∧ col3 (fun c h w => V0 ∧ Bf c h w) (fun c h w => V1 ∧ Af c h w) Cn c dl h' w)
    (fun c dl h w => ?_) _ _ c dl h w
  refine tapsH_apply _ (fun c dl h w => col3 (fun c h w => V0 ∧ Bf c h w) (fun c h w => V1 ∧ Af c h w) Cn c dl h w)
    (fun c dl h w => ?_) _ _ c dl h w
  refine tapsD_col3 _ _ _ _ _ _ (fun c h w => ?_) (fun c h w => ?_) h19 _ _ _ _ c dl h w
  · rw [scalar_select_apply, broadcast_apply, h30]
    show Scalar.select v0 _ (Ideal.ofBits .bf16 0x0000#16) = _
    rw [ofBits_bf16_zero]
    exact select_ind_left hv0 _
  · rw [scalar_select_apply, broadcast_apply, truncf_apply, sitofp_apply, extui_apply, cmpf_apply, broadcast_apply, sitofp_ogt]
    show Scalar.select v1 (ind (half < v36 _)) (Ideal.ofBits .bf16 0x0000#16) = _
    rw [ofBits_bf16_zero, select_ind_left hv1]
    exact ind_congr (and_congr Iff.rfl (h36 c h w))

end Stages

/-- The stored block viewed [1, 4, 4, 256, 256], at an index. -/
theorem pay1_apply (v80 : FVec Ideal S4x4x256x256 .f32) (c dl : Fin 4) (h w : Fin 256) :
    k0_pay1 (F := Ideal) v80 (ix5 0 c dl h w) = v80 (ix4 c dl h w) := by
  unfold k0_pay1
  refine shapeCast_apply _ _ (ix5 (0 : Fin 1) c dl h w) (ix4 c dl h w) ?_
  rw [Shape.rowMajor_val_five, Shape.rowMajor_val_four]
  show ((c.val * 4 + dl.val) * 256 + h.val) * 256 + w.val = ((((0 : ℕ) * 4 + c.val) * 4 + dl.val) * 256 + h.val) * 256 + w.val
  omega

/-- The two tests of the depth-block coordinate: not the first block, not the last. -/
theorem not_first : ∀ k : Fin 16, (Scalar.cmpi .sgt (BitVec.ofNat 32 k.val) 0#32 = 1 ↔ 0 < k.val) := by decide
theorem not_last : ∀ k : Fin 16, (Scalar.cmpi .slt (BitVec.ofNat 32 k.val) 15#32 = 1 ↔ k.val < 15) := by decide

/-- The whole stored value at an index of the block, from the five loaded vectors and the depth-block coordinate `k`. -/
theorem stored_apply (k : Fin 16) (x0 : Vec Ideal S1x4x4x256x256 .f32) (x1 x2 : Vec Ideal S1x4x1x256x256 .f32)
    (c dl : Fin 4) (h w : Fin 256) :
    k0_pay1 (F := Ideal) (k0_pay8 (Scalar.cmpi .sgt (BitVec.ofNat 32 k.val) 0#32) (Scalar.cmpi .slt (BitVec.ofNat 32 k.val) 15#32)
        (k0_pay4 x3 x4 x0) (k0_pay5 x3 x4 x0) (k0_pay6 x3 x4 x1) (k0_pay7 x3 x4 x2)) (ix5 0 c dl h w)
      = ind (∃ w', Near w w' ∧ ∃ h', Near h h' ∧
          col3 (fun c h w => 0 < k.val ∧ half < nrm x3 x4 c (x1 (ix5 0 c 0 h w)))
            (fun c h w => k.val < 15 ∧ half < nrm x3 x4 c (x2 (ix5 0 c 0 h w)))
            (fun c dl h w => half < nrm x3 x4 c (x0 (ix5 0 c dl h w))) c dl h' w')
        - ind (half < nrm x3 x4 c (x0 (ix5 0 c dl h w))) := by
  rw [pay1_apply]
  exact pay8_apply _ _ _ _ _ _ (0 < k.val) (k.val < 15) _ (fun c h w => half < nrm x3 x4 c (x1 (ix5 0 c 0 h w)))
    (fun c h w => half < nrm x3 x4 c (x2 (ix5 0 c 0 h w))) (not_first k) (not_last k)
    (pay4_apply x3 x4 x0) (pay5_apply x3 x4 x0) (pay6_apply x3 x4 x1)
    (fun c h w => by rw [pay7_apply]) c dl h w

end Cert.KernelIdeal.Val

end
-- ==== Proof.DepthBlocks.lean ====
/-
  The column of six of depth block `db` (of sixteen blocks of four rows) in the array's own depth coordinate:
  position `e` of the column is depth `4·db + e - 1`, present when that lies in `[0, 64)` — the row before the
  first block and the row after the last are absent (the kernel zeroes them). So "one of positions `dl`, `dl + 1`,
  `dl + 2` holds" is "some depth within one step of `4·db + dl` holds".
-/
import proofs.«135130_j32341103739184_2_alg».proof.Proof.PadD

noncomputable section

namespace Cert.Boundary

variable (V0 V1 : Prop) (Bf Af : Fin 4 → Fin 256 → Fin 256 → Prop) (Cn : Fin 4 → Fin 4 → Fin 256 → Fin 256 → Prop)
  (O : Fin 64 → Prop) (db : Fin 16) (c : Fin 4) (h w : Fin 256)

/-- One position of the column of six, in the array's depth coordinate. -/
theorem col_global (hV0 : V0 ↔ 0 < db.val) (hV1 : V1 ↔ db.val < 15)
    (hB : Bf c h w ↔ O ⟨4 * db.val - 1, by have := db.isLt; omega⟩)
    (hA : Af c h w ↔ O ⟨min (4 * db.val + 4) 63, by omega⟩)
    (hC : ∀ dl : Fin 4, Cn c dl h w ↔ O ⟨4 * db.val + dl.val, by have := db.isLt; have := dl.isLt; omega⟩) (e : Fin 6) :
    col (fun c h w => V0 ∧ Bf c h w) (fun c h w => V1 ∧ Af c h w) Cn c e h w
      ↔ ∃ d' : Fin 64, d'.val + 1 = 4 * db.val + e.val ∧ O d' := by
  have hdb := db.isLt
  have he := e.isLt
  unfold col
  by_cases h0 : e.val = 0
  · rw [if_pos h0]
    constructor
    · rintro ⟨v, b⟩
      rw [hV0] at v
      exact ⟨⟨4 * db.val - 1, by omega⟩, by show 4 * db.val - 1 + 1 = _; omega, hB.mp b⟩
    · rintro ⟨d', hd, ho⟩
      have e' : d' = ⟨4 * db.val - 1, by omega⟩ := Fin.ext (by show d'.val = 4 * db.val - 1; omega)
      rw [e'] at ho
      exact ⟨hV0.mpr (by omega), hB.mpr ho⟩
  · rw [if_neg h0]
    by_cases h5 : e.val = 5
    · rw [dif_pos h5]
      constructor
      · rintro ⟨v, a⟩
        rw [hV1] at v
        refine ⟨⟨min (4 * db.val + 4) 63, by omega⟩, by show min (4 * db.val + 4) 63 + 1 = _; omega, hA.mp a⟩
      · rintro ⟨d', hd, ho⟩
        have hd' := d'.isLt
        have e' : d' = ⟨min (4 * db.val + 4) 63, by omega⟩ := Fin.ext (by show d'.val = min (4 * db.val + 4) 63; omega)
        rw [e'] at ho
        exact ⟨hV1.mpr (by omega), hA.mpr ho⟩
    · rw [dif_neg h5]
      rw [hC]
      constructor
      · intro ho
        exact ⟨_, by show 4 * db.val + (e.val - 1) + 1 = _; omega, ho⟩
      · rintro ⟨d', hd, ho⟩
        have e' : d' = ⟨4 * db.val + (e.val - 1), by omega⟩ := Fin.ext (by show d'.val = 4 * db.val + (e.val - 1); omega)
        rw [e'] at ho
        exact ho

/-- Three consecutive positions of the column of six are the depths within one step. -/
theorem col3_global (hV0 : V0 ↔ 0 < db.val) (hV1 : V1 ↔ db.val < 15)
    (hB : Bf c h w ↔ O ⟨4 * db.val - 1, by have := db.isLt; omega⟩)
    (hA : Af c h w ↔ O ⟨min (4 * db.val + 4) 63, by omega⟩)
    (hC : ∀ dl : Fin 4, Cn c dl h w ↔ O ⟨4 * db.val + dl.val, by have := db.isLt; have := dl.isLt; omega⟩) (dl : Fin 4) :
    col3 (fun c h w => V0 ∧ Bf c h w) (fun c h w => V1 ∧ Af c h w) Cn c dl h w
      ↔ ∃ d' : Fin 64, Near (⟨4 * db.val + dl.val, by have := db.isLt; have := dl.isLt; omega⟩ : Fin 64) d' ∧ O d' := by
  unfold col3
  rw [col_global V0 V1 Bf Af Cn O db c h w hV0 hV1 hB hA hC, col_global V0 V1 Bf Af Cn O db c h w hV0 hV1 hB hA hC,
    col_global V0 V1 Bf Af Cn O db c h w hV0 hV1 hB hA hC]
  constructor
  · rintro ((⟨d', hd, ho⟩ | ⟨d', hd, ho⟩) | ⟨d', hd, ho⟩)
    · exact ⟨d', ⟨by show d'.val ≤ 4 * db.val + dl.val + 1; simp only [] at hd; omega, by show 4 * db.val + dl.val ≤ d'.val + 1; simp only [] at hd; omega⟩, ho⟩
    · exact ⟨d', ⟨by show d'.val ≤ 4 * db.val + dl.val + 1; simp only [] at hd; omega, by show 4 * db.val + dl.val ≤ d'.val + 1; simp only [] at hd; omega⟩, ho⟩
    · exact ⟨d', ⟨by show d'.val ≤ 4 * db.val + dl.val + 1; simp only [] at hd; omega, by show 4 * db.val + dl.val ≤ d'.val + 1; simp only [] at hd; omega⟩, ho⟩
  · rintro ⟨d', ⟨h1, h2⟩, ho⟩
    have h1' : d'.val ≤ 4 * db.val + dl.val + 1 := h1
    have h2' : 4 * db.val + dl.val ≤ d'.val + 1 := h2
    rcases Nat.lt_trichotomy d'.val (4 * db.val + dl.val) with hl | he | hg
    · left; left; exact ⟨d', by show d'.val + 1 = 4 * db.val + (0 + dl.val); omega, ho⟩
    · left; right; exact ⟨d', by show d'.val + 1 = 4 * db.val + (1 + dl.val); omega, ho⟩
    · right; exact ⟨d', by show d'.val + 1 = 4 * db.val + (2 + dl.val); omega, ho⟩

end Cert.Boundary

end
-- ==== Proof.BlockValue.lean ====
/-
  The stored block is a block of the boundary map. If the five loaded vectors are what the array and the two
  channel vectors hold at depth block `db` of batch `bF` — the four rows `4·db … 4·db + 3`, the row `4·db - 1`
  (clamped at 0) and the row `4·db + 4` (clamped at 63) — then the value stored at `(c, dl, h, w)` of the block
  is the boundary map of the array at `(bF, c, 4·db + dl, h, w)`: the clamped rows are used only where they are
  not clamped, and the depth taps of the column of six are the depths within one step.
-/
import proofs.«135130_j32341103739184_2_alg».proof.Proof.KernelPayload
import proofs.«135130_j32341103739184_2_alg».proof.Proof.DepthBlocks

noncomputable section

namespace Cert.KernelIdeal.Val

open Idealize.ShloMosaic Idealize.ShloMosaic.ValueIdx Cert.KernelIdeal Cert.KernelIdeal.Gen Cert.Boundary

theorem block_value (X : Arr.Idx → EReal) (lo hi : Chan.Idx → EReal) (bF : Fin 2) (db : Fin 16)
    (x0 : Vec Ideal S1x4x4x256x256 .f32) (x1 x2 : Vec Ideal S1x4x1x256x256 .f32) (x3 x4 : Vec Ideal S4 .f32)
    (h0 : ∀ (cc dl : Fin 4) (h w : Fin 256),
      x0 (ix5 0 cc dl h w) = X (ix5 bF cc ⟨4 * db.val + dl.val, by have := db.isLt; have := dl.isLt; omega⟩ h w))
    (h1 : ∀ (cc : Fin 4) (h w : Fin 256), x1 (ix5 0 cc 0 h w) = X (ix5 bF cc ⟨4 * db.val - 1, by have := db.isLt; omega⟩ h w))
    (h2 : ∀ (cc : Fin 4) (h w : Fin 256), x2 (ix5 0 cc 0 h w) = X (ix5 bF cc ⟨min (4 * db.val + 4) 63, by omega⟩ h w))
    (h3 : ∀ cc : Fin 4, x3 (ix1 cc) = lo (ix1 cc)) (h4 : ∀ cc : Fin 4, x4 (ix1 cc) = hi (ix1 cc))
    (cc dl : Fin 4) (h w : Fin 256) :
    k0_pay1 (F := Ideal) (k0_pay8 (Scalar.cmpi .sgt (BitVec.ofNat 32 db.val) 0#32) (Scalar.cmpi .slt (BitVec.ofNat 32 db.val) 15#32)
        (k0_pay4 x3 x4 x0) (k0_pay5 x3 x4 x0) (k0_pay6 x3 x4 x1) (k0_pay7 x3 x4 x2)) (ix5 0 cc dl h w)
      = Cert.Boundary.boundary X lo hi (ix5 bF cc ⟨4 * db.val + dl.val, by have := db.isLt; have := dl.isLt; omega⟩ h w) := by
  have hOn0 : ∀ (cc dl : Fin 4) (h w : Fin 256), (half < nrm x3 x4 cc (x0 (ix5 0 cc dl h w)))
      ↔ On X lo hi bF cc ⟨4 * db.val + dl.val, by have := db.isLt; have := dl.isLt; omega⟩ h w := fun cc dl h w => by
    unfold nrm On; rw [h0, h3, h4]
  have hOn1 : ∀ (cc : Fin 4) (h w : Fin 256), (half < nrm x3 x4 cc (x1 (ix5 0 cc 0 h w)))
      ↔ On X lo hi bF cc ⟨4 * db.val - 1, by have := db.isLt; omega⟩ h w := fun cc h w => by
    unfold nrm On; rw [h1, h3, h4]
  have hOn2 : ∀ (cc : Fin 4) (h w : Fin 256), (half < nrm x3 x4 cc (x2 (ix5 0 cc 0 h w)))
      ↔ On X lo hi bF cc ⟨min (4 * db.val + 4) 63, by omega⟩ h w := fun cc h w => by
    unfold nrm On; rw [h2, h3, h4]
  have hcol : ∀ (h' w' : Fin 256),
      col3 (fun c h w => 0 < db.val ∧ half < nrm x3 x4 c (x1 (ix5 0 c 0 h w)))
        (fun c h w => db.val < 15 ∧ half < nrm x3 x4 c (x2 (ix5 0 c 0 h w)))
        (fun c dl h w => half < nrm x3 x4 c (x0 (ix5 0 c dl h w))) cc dl h' w'
      ↔ ∃ d' : Fin 64, Near (⟨4 * db.val + dl.val, by have := db.isLt; have := dl.isLt; omega⟩ : Fin 64) d' ∧ On X lo hi bF cc d' h' w' :=
    fun h' w' => col3_global (0 < db.val) (db.val < 15) (fun c h w => half < nrm x3 x4 c (x1 (ix5 0 c 0 h w)))
      (fun c h w => half < nrm x3 x4 c (x2 (ix5 0 c 0 h w))) (fun c dl h w => half < nrm x3 x4 c (x0 (ix5 0 c dl h w)))
      (fun d' => On X lo hi bF cc d' h' w') db cc h' w' Iff.rfl Iff.rfl (hOn1 cc h' w') (hOn2 cc h' w') (fun dl => hOn0 cc dl h' w') dl
  rw [stored_apply]
  unfold Cert.Boundary.boundary
  show _ - _ = ind (Dil X lo hi bF cc ⟨4 * db.val + dl.val, _⟩ h w) - ind (On X lo hi bF cc ⟨4 * db.val + dl.val, _⟩ h w)
  congr 1
  · apply ind_congr
    unfold Dil
    constructor
    · rintro ⟨w', hw, h', hh, hc3⟩
      obtain ⟨d', hd, ho⟩ := (hcol h' w').mp hc3
      exact ⟨d', h', w', hd, hh, hw, ho⟩
    · rintro ⟨d', h', w', hd, hh, hw, ho⟩
      exact ⟨w', hw, h', hh, (hcol h' w').mpr ⟨d', hd, ho⟩⟩
  · exact ind_congr (hOn0 cc dl h w)

end Cert.KernelIdeal.Val

end
-- ==== Proof.KernelValue.lean ====
/-
  The kernel's result array after the run is the boundary map of the argument array.

  Grid point `t` = (batch `b`, depth block `db`) writes back block `(b, 0, db, 0, 0)` of the result; the three
  input windows on the argument array sit at blocks `(b, 0, db, 0, 0)` (four rows), `(b, 0, max (4·db - 1) 0, 0, 0)`
  and `(b, 0, min (4·db + 4) 63, 0, 0)` (one row each); the two channel vectors are whole. So what point `t`
  writes back is block `t` of the boundary map, and the 2 × 16 blocks tile the result.
-/
import proofs.«135130_j32341103739184_2_alg».proof.Proof.KernelIdealFrame
import proofs.«135130_j32341103739184_2_alg».proof.Proof.BlockValue
import Idealize.ShloMosaic.Lib.Pipeline.Value
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Hand Cert.Boundary

variable (m : (ℓ : Loc nD τ sig) → Buf (Elt Ideal) ℓ) (ρ : Dev nD → PrngReg)

/-- The boundary map of the array the region finds, with the channel extremes the host operations computed. -/
def G (c : Dev nD) : S2x4x64x256x256.Idx → EReal :=
  Cert.Boundary.boundary (V m c main_arg0 : S2x4x64x256x256.Idx → EReal) (V m c main_v0 : S4.Idx → EReal) (V m c main_v1 : S4.Idx → EReal)

/-- The printed index maps over the grid: the block indices of the six windows at point `t`, in the point's
    coordinates (batch, depth block). -/
theorem idx_facts : ∀ t : Fin cfg0.N,
    (win0_0.index t (0 : Fin 5) = (grid0.coords t 0).val ∧ win0_0.index t (1 : Fin 5) = 0 ∧ win0_0.index t (2 : Fin 5) = (grid0.coords t 1).val
      ∧ win0_0.index t (3 : Fin 5) = 0 ∧ win0_0.index t (4 : Fin 5) = 0)
    ∧ (win0_1.index t (0 : Fin 5) = (grid0.coords t 0).val ∧ win0_1.index t (1 : Fin 5) = 0 ∧ win0_1.index t (2 : Fin 5) = 4 * (grid0.coords t 1).val - 1
      ∧ win0_1.index t (3 : Fin 5) = 0 ∧ win0_1.index t (4 : Fin 5) = 0)
    ∧ (win0_2.index t (0 : Fin 5) = (grid0.coords t 0).val ∧ win0_2.index t (1 : Fin 5) = 0 ∧ win0_2.index t (2 : Fin 5) = min (4 * (grid0.coords t 1).val + 4) 63
      ∧ win0_2.index t (3 : Fin 5) = 0 ∧ win0_2.index t (4 : Fin 5) = 0)
    ∧ win0_3.index t (0 : Fin 1) = 0 ∧ win0_4.index t (0 : Fin 1) = 0
    ∧ (win0_5.index t (0 : Fin 5) = (grid0.coords t 0).val ∧ win0_5.index t (1 : Fin 5) = 0 ∧ win0_5.index t (2 : Fin 5) = (grid0.coords t 1).val
      ∧ win0_5.index t (3 : Fin 5) = 0 ∧ win0_5.index t (4 : Fin 5) = 0) :=
  (by decide +kernel : ∀ t : Fin grid0.N, _)

/-- Every (batch, depth block) is some point's. -/
theorem idx_onto : ∀ (q0 : Fin 2) (q2 : Fin 16), ∃ t : Fin cfg0.N, (grid0.coords t 0).val = q0.val ∧ (grid0.coords t 1).val = q2.val :=
  (by decide +kernel : ∀ (q0 : Fin 2) (q2 : Fin 16), ∃ t : Fin grid0.N, (grid0.coords t 0).val = q0.val ∧ (grid0.coords t 1).val = q2.val)

/-- The two windows on the channel vectors read the whole vector (their one block, at index 0). Stated for any
    contents `A` of the array, so that nothing about the array itself is ever unfolded. -/
theorem chan3_read (c : Dev nD) (t : Fin cfg0.N) (A : Buf (Elt Ideal) ((cfg0.win 3).arr.view.loc (c.tc : Thread nD τ))) (cc : Fin 4)
    (h0 : win0_3.index t (0 : Fin 1) = 0) :
    ((cfg0.win 3).blk t).view.read (Elt Ideal) A (ix1 cc) = (A : S4.Idx → EReal) (ix1 cc) := by
  show (A : S4.Idx → EReal) (((cfg0.win 3).blk t).view.emb (ix1 cc)) = _
  refine congrArg _ (funext fun a => Fin.ext ?_)
  match a with
  | ⟨0, _⟩ => show win0_3.index t (0 : Fin 1) * 4 + 1 * cc.val = cc.val; omega

theorem chan4_read (c : Dev nD) (t : Fin cfg0.N) (A : Buf (Elt Ideal) ((cfg0.win 4).arr.view.loc (c.tc : Thread nD τ))) (cc : Fin 4)
    (h0 : win0_4.index t (0 : Fin 1) = 0) :
    ((cfg0.win 4).blk t).view.read (Elt Ideal) A (ix1 cc) = (A : S4.Idx → EReal) (ix1 cc) := by
  show (A : S4.Idx → EReal) (((cfg0.win 4).blk t).view.emb (ix1 cc)) = _
  refine congrArg _ (funext fun a => Fin.ext ?_)
  match a with
  | ⟨0, _⟩ => show win0_4.index t (0 : Fin 1) * 4 + 1 * cc.val = cc.val; omega

/-- What point `t` writes back is block `t` of the boundary map. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after5]
  unfold outBlk
  obtain ⟨⟨a0, a1, a2, a3, a4⟩, ⟨b0, b1, b2, b3, b4⟩, ⟨c0, c1, c2, c3, c4⟩, d0, e0, ⟨f0, f1, f2, f3, f4⟩⟩ := idx_facts t
  funext j
  obtain ⟨z, cc, dl, h, w, rfl⟩ : ∃ (z : Fin 1) (cc dl : Fin 4) (h w : Fin 256), j = ix5 z cc dl h w :=
    ⟨j 0, j 1, j 2, j 3, j 4, eq_ix5 j⟩
  have hz : z = 0 := Subsingleton.elim _ _
  subst hz
  have hdb : (grid0.coords t 1).val < 16 := (grid0.coords t 1).isLt
  have hb : (grid0.coords t 0).val < 2 := (grid0.coords t 0).isLt
  refine (block_value (V m c main_arg0 : S2x4x64x256x256.Idx → EReal) (V m c main_v0 : S4.Idx → EReal) (V m c main_v1 : S4.Idx → EReal)
    (grid0.coords t 0) (grid0.coords t 1) (iblk m c 0 t) (iblk m c 1 t) (iblk m c 2 t) (iblk m c 3 t) (iblk m c 4 t)
    (fun cc dl h w => ?_) (fun cc h w => ?_) (fun cc h w => ?_) (fun cc => ?_) (fun cc => ?_) cc dl h w).trans ?_
  · show (V m c main_arg0 : S2x4x64x256x256.Idx → EReal) (((cfg0.win 0).blk t).view.emb (ix5 (0 : Fin 1) cc dl h w)) = _
    refine congrArg _ (funext fun a => Fin.ext ?_)
    match a with
    | ⟨0, _⟩ => show win0_0.index t (0 : Fin 5) * 1 + 1 * 0 = (grid0.coords t 0).val; omega
    | ⟨1, _⟩ => show win0_0.index t (1 : Fin 5) * 4 + 1 * cc.val = cc.val; omega
    | ⟨2, _⟩ => show win0_0.index t (2 : Fin 5) * 4 + 1 * dl.val = 4 * (grid0.coords t 1).val + dl.val; omega
    | ⟨3, _⟩ => show win0_0.index t (3 : Fin 5) * 256 + 1 * h.val = h.val; omega
    | ⟨4, _⟩ => show win0_0.index t (4 : Fin 5) * 256 + 1 * w.val = w.val; omega
  · show (V m c main_arg0 : S2x4x64x256x256.Idx → EReal) (((cfg0.win 1).blk t).view.emb (ix5 (0 : Fin 1) cc (0 : Fin 1) h w)) = _
    refine congrArg _ (funext fun a => Fin.ext ?_)
    match a with
    | ⟨0, _⟩ => show win0_1.index t (0 : Fin 5) * 1 + 1 * 0 = (grid0.coords t 0).val; omega
    | ⟨1, _⟩ => show win0_1.index t (1 : Fin 5) * 4 + 1 * cc.val = cc.val; omega
    | ⟨2, _⟩ => show win0_1.index t (2 : Fin 5) * 1 + 1 * 0 = 4 * (grid0.coords t 1).val - 1; omega
    | ⟨3, _⟩ => show win0_1.index t (3 : Fin 5) * 256 + 1 * h.val = h.val; omega
    | ⟨4, _⟩ => show win0_1.index t (4 : Fin 5) * 256 + 1 * w.val = w.val; omega
  · show (V m c main_arg0 : S2x4x64x256x256.Idx → EReal) (((cfg0.win 2).blk t).view.emb (ix5 (0 : Fin 1) cc (0 : Fin 1) h w)) = _
    refine congrArg _ (funext fun a => Fin.ext ?_)
    match a with
    | ⟨0, _⟩ => show win0_2.index t (0 : Fin 5) * 1 + 1 * 0 = (grid0.coords t 0).val; omega
    | ⟨1, _⟩ => show win0_2.index t (1 : Fin 5) * 4 + 1 * cc.val = cc.val; omega
    | ⟨2, _⟩ => show win0_2.index t (2 : Fin 5) * 1 + 1 * 0 = min (4 * (grid0.coords t 1).val + 4) 63; omega
    | ⟨3, _⟩ => show win0_2.index t (3 : Fin 5) * 256 + 1 * h.val = h.val; omega
    | ⟨4, _⟩ => show win0_2.index t (4 : Fin 5) * 256 + 1 * w.val = w.val; omega
  · exact chan3_read c t (V m c (Pipeline.arrRef spec0 3)) cc d0
  · exact chan4_read c t (V m c (Pipeline.arrRef spec0 4)) cc e0
  · show _ = G m c (((cfg0.win 5).blk t).view.emb (ix5 (0 : Fin 1) cc dl h w))
    unfold G
    refine congrArg _ (funext fun a => Fin.ext ?_)
    match a with
    | ⟨0, _⟩ => show (grid0.coords t 0).val = win0_5.index t (0 : Fin 5) * 1 + 1 * 0; omega
    | ⟨1, _⟩ => show cc.val = win0_5.index t (1 : Fin 5) * 4 + 1 * cc.val; omega
    | ⟨2, _⟩ => show 4 * (grid0.coords t 1).val + dl.val = win0_5.index t (2 : Fin 5) * 4 + 1 * dl.val; omega
    | ⟨3, _⟩ => show h.val = win0_5.index t (3 : Fin 5) * 256 + 1 * h.val; omega
    | ⟨4, _⟩ => show w.val = win0_5.index t (4 : Fin 5) * 256 + 1 * w.val; omega

/-- An index of the result is in point `t`'s block iff each coordinate is in the block's range on its axis. -/
theorem mem_blk (t : Fin cfg0.N) (i : S2x4x64x256x256.Idx) :
    i ∈ ((cfg0.win 5).blk t).view.set ↔ ∀ a : Fin 5, win0_5.index t a * S1x4x4x256x256.size a ≤ (i a).val
      ∧ (i a).val < win0_5.index t a * S1x4x4x256x256.size a + S1x4x4x256x256.size a := by
  show i ∈ ((View.whole main_v2).slice (win0_5.rect t)).set ↔ _
  rw [View.set_slice_whole, Rect.mem_set_unit]
  exact Iff.rfl

/-- The blocks tile the result: index `i` is in the block of the point (batch `i 0`, depth block `i 2 / 4`). -/
theorem cover (i : S2x4x64x256x256.Idx) : ∃ t : Fin cfg0.N, (cfg0.win 5).flush t = true ∧ i ∈ ((cfg0.win 5).blk t).view.set := by
  have hi0 : (i 0).val < 2 := (i 0).isLt
  have hi1 : (i 1).val < 4 := (i 1).isLt
  have hi2 : (i 2).val < 64 := (i 2).isLt
  have hi3 : (i 3).val < 256 := (i 3).isLt
  have hi4 : (i 4).val < 256 := (i 4).isLt
  obtain ⟨t, ht0, ht2⟩ := idx_onto ⟨(i 0).val, hi0⟩ ⟨(i 2).val / 4, by omega⟩
  obtain ⟨-, -, -, -, -, ⟨f0, f1, f2, f3, f4⟩⟩ := idx_facts t
  refine ⟨t, flush0_5 t, ?_⟩
  rw [mem_blk]
  intro a
  have ht0' : (grid0.coords t 0).val = (i 0).val := ht0
  have ht2' : (grid0.coords t 1).val = (i 2).val / 4 := ht2
  match a with
  | ⟨0, _⟩ => show win0_5.index t (0 : Fin 5) * 1 ≤ (i 0).val ∧ (i 0).val < win0_5.index t (0 : Fin 5) * 1 + 1; omega
  | ⟨1, _⟩ => show win0_5.index t (1 : Fin 5) * 4 ≤ (i 1).val ∧ (i 1).val < win0_5.index t (1 : Fin 5) * 4 + 4; omega
  | ⟨2, _⟩ => show win0_5.index t (2 : Fin 5) * 4 ≤ (i 2).val ∧ (i 2).val < win0_5.index t (2 : Fin 5) * 4 + 4; omega
  | ⟨3, _⟩ => show win0_5.index t (3 : Fin 5) * 256 ≤ (i 3).val ∧ (i 3).val < win0_5.index t (3 : Fin 5) * 256 + 256; omega
  | ⟨4, _⟩ => show win0_5.index t (4 : Fin 5) * 256 ≤ (i 4).val ∧ (i 4).val < win0_5.index t (4 : Fin 5) * 256 + 256; omega

/-- The result array after the run. -/
theorem final (c : Dev nD) : (dats m 0 c).arrAt 5 cfg0.N = G m c :=
  (dats m 0 c).arrAt_eq_of_cover 5 (G m c) (fun t _ => flushed_eq m c t) cover

end Cert.KernelIdeal.Val

end
-- ==== Proof.KernelRun.lean ====
/-
  The idealized kernel program's run, read: its result array ends at the boundary map of the argument array, with
  the per-channel minima and maxima its own two host reductions computed, and the argument array ends unchanged.
-/
import proofs.«135130_j32341103739184_2_alg».proof.Proof.KernelValue

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen Cert.KernelIdeal.Hand Cert.Boundary

variable (m : (ℓ : Loc nD τ sig) → Buf (Elt Ideal) ℓ) (ρ : Dev nD → PrngReg)

/-- The region finds the channel minima where the second host operation put them, -/
theorem V_lo (c : Dev nD) : (V m c main_v0 : S4.Idx → EReal)
    = Host.reduce (FloatOps.minimumf (F := Ideal) (φ := .f32)) (m ((c : Thread nD τ).loc main_arg0))
        (constant (F := Ideal) S_ .f32 0x7F800000#32) Facts₀.reducesTo_S2x4x64x256x256_S4_d0_2_3_4 Facts₀.h_S_ := by
  dsimp only [V, hostOps0]
  after_results

/-- and the channel maxima where the fourth put them. -/
theorem V_hi (c : Dev nD) : (V m c main_v1 : S4.Idx → EReal)
    = Host.reduce (FloatOps.maximumf (F := Ideal) (φ := .f32)) (m ((c : Thread nD τ).loc main_arg0))
        (constant (F := Ideal) S_ .f32 0xFF800000#32) Facts₀.reducesTo_S2x4x64x256x256_S4_d0_2_3_4 Facts₀.h_S_ := by
  dsimp only [V, hostOps0]
  after_results

/-- The boundary map the kernel computes, in terms of the launch contents of the argument array alone. -/
def result (c : Dev nD) : S2x4x64x256x256.Idx → EReal :=
  Cert.Boundary.boundary (m ((c : Thread nD τ).loc main_arg0))
    (Host.reduce (FloatOps.minimumf (F := Ideal) (φ := .f32)) (m ((c : Thread nD τ).loc main_arg0))
      (constant (F := Ideal) S_ .f32 0x7F800000#32) Facts₀.reducesTo_S2x4x64x256x256_S4_d0_2_3_4 Facts₀.h_S_)
    (Host.reduce (FloatOps.maximumf (F := Ideal) (φ := .f32)) (m ((c : Thread nD τ).loc main_arg0))
      (constant (F := Ideal) S_ .f32 0xFF800000#32) Facts₀.reducesTo_S2x4x64x256x256_S4_d0_2_3_4 Facts₀.h_S_)

theorem G_eq (c : Dev nD) : G m c = result m c := by
  unfold G result
  rw [V_lo, V_hi, V_main_arg0]

/-- The run. -/
theorem kernel_run : θ_run defs (onTc (τ := τ) (main (F := Ideal))) ⟨m, fun _ => 0, ρ⟩ (fun r => ∀ c : Dev nD,
    r.2.mem ((c.tc : Thread nD τ).loc main_v2) = result m c
    ∧ r.2.mem ((c.tc : Thread nD τ).loc main_arg0) = m ((c.tc : Thread nD τ).loc main_arg0)) :=
  (θ_run defs _ _).mono (fun _ h c => ⟨(h c).1.trans ((final m c).trans (G_eq m c)), (h c).2⟩) (run_main m ρ)

end Cert.KernelIdeal.Val

end
-- ==== Proof.RefRun.lean ====
/-
  The reference program's run, read back as one pure term of its argument.

  The program is a straight line of 23 host operations on the array `x`. Its run from any memory
  ends with the result buffer holding the operations' composition applied to `x`, and `x` unchanged.
  The composition is named here stage by stage: the channel extremes `lo`, `hi` (two opaque
  reductions of `x`), the normalisation `(x - lo) / (hi - lo)`, the 0/1 mask of where it exceeds one
  half, the windowed maximum of the mask over 3×3×3 neighbourhoods, the 0/1 mask of where that
  reaches one, and the difference of the two masks.
-/
import proofs.«135130_j32341103739184_2_alg».proof.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

/-- The operations of the program, in order. -/
abbrev ops : List (HloOp τ sig (Elt F)) :=
  [ nullary main_cst (constant S_ .f32 0x7F800000#32),
    binary main_arg0 main_cst main_v0 ((fun x v => Host.reduce FloatOps.minimumf x v reducesTo_S2x4x64x256x256_S4_d0_2_3_4 h_S_) : (⟨S2x4x64x256x256, .f32⟩ : BufTy).Contents (Elt F) → (⟨S_, .f32⟩ : BufTy).Contents (Elt F) → (⟨S4, .f32⟩ : BufTy).Contents (Elt F)),
    unary main_v0 main_v1 (broadcastInDim S1x4x1x1x1 ![1] bcast_S4_S1x4x1x1x1_1 : (⟨S4, .f32⟩ : BufTy).Contents (Elt F) → (⟨S1x4x1x1x1, .f32⟩ : BufTy).Contents (Elt F)),
    nullary main_cst_0 (constant S_ .f32 0xFF800000#32),
    binary main_arg0 main_cst_0 main_v2 ((fun x v => Host.reduce FloatOps.maximumf x v reducesTo_S2x4x64x256x256_S4_d0_2_3_4 h_S_) : (⟨S2x4x64x256x256, .f32⟩ : BufTy).Contents (Elt F) → (⟨S_, .f32⟩ : BufTy).Contents (Elt F) → (⟨S4, .f32⟩ : BufTy).Contents (Elt F)),
    unary main_v2 main_v3 (broadcastInDim S1x4x1x1x1 ![1] bcast_S4_S1x4x1x1x1_1 : (⟨S4, .f32⟩ : BufTy).Contents (Elt F) → (⟨S1x4x1x1x1, .f32⟩ : BufTy).Contents (Elt F)),
    unary main_v1 main_v4 (broadcastInDim S2x4x64x256x256 ![0, 1, 2, 3, 4] bcast_S1x4x1x1x1_S2x4x64x256x256_0_1_2_3_4 : (⟨S1x4x1x1x1, .f32⟩ : BufTy).Contents (Elt F) → (⟨S2x4x64x256x256, .f32⟩ : BufTy).Contents (Elt F)),
    binary main_arg0 main_v4 main_v5 (subf : (⟨S2x4x64x256x256, .f32⟩ : BufTy).Contents (Elt F) → (⟨S2x4x64x256x256, .f32⟩ : BufTy).Contents (Elt F) → (⟨S2x4x64x256x256, .f32⟩ : BufTy).Contents (Elt F)),
    binary main_v3 main_v1 main_v6 (subf : (⟨S1x4x1x1x1, .f32⟩ : BufTy).Contents (Elt F) → (⟨S1x4x1x1x1, .f32⟩ : BufTy).Contents (Elt F) → (⟨S1x4x1x1x1, .f32⟩ : BufTy).Contents (Elt F)),
    unary main_v6 main_v7 (broadcastInDim S2x4x64x256x256 ![0, 1, 2, 3, 4] bcast_S1x4x1x1x1_S2x4x64x256x256_0_1_2_3_4 : (⟨S1x4x1x1x1, .f32⟩ : BufTy).Contents (Elt F) → (⟨S2x4x64x256x256, .f32⟩ : BufTy).Contents (Elt F)),
    binary main_v5 main_v7 main_v8 (Host.divf : (⟨S2x4x64x256x256, .f32⟩ : BufTy).Contents (Elt F) → (⟨S2x4x64x256x256, .f32⟩ : BufTy).Contents (Elt F) → (⟨S2x4x64x256x256, .f32⟩ : BufTy).Contents (Elt F)),
    nullary main_cst_1 (constant S_ .f32 0x3F000000#32),
    unary main_cst_1 main_v9 (broadcastInDim S2x4x64x256x256 ![] bcast_S_S2x4x64x256x256 : (⟨S_, .f32⟩ : BufTy).Contents (Elt F) → (⟨S2x4x64x256x256, .f32⟩ : BufTy).Contents (Elt F)),
    binary main_v8 main_v9 main_v10 (cmpf .ogt : (⟨S2x4x64x256x256, .f32⟩ : BufTy).Contents (Elt F) → (⟨S2x4x64x256x256, .f32⟩ : BufTy).Contents (Elt F) → (⟨S2x4x64x256x256, .i1⟩ : BufTy).Contents (Elt F)),
    unary main_v10 main_v11 (uitofp .f32 : (⟨S2x4x64x256x256, .i1⟩ : BufTy).Contents (Elt F) → (⟨S2x4x64x256x256, .f32⟩ : BufTy).Contents (Elt F)),
    nullary main_cst_2 (constant S_ .f32 0xFF800000#32),
    unary main_cst_2 main_v12 (broadcastInDim S_ ![] bcast_S_S_ : (⟨S_, .f32⟩ : BufTy).Contents (Elt F) → (⟨S_, .f32⟩ : BufTy).Contents (Elt F)),
    binary main_v11 main_v12 main_v13 ((fun x v => Host.reduceWindow FloatOps.maximumf ![1, 1, 3, 3, 3] ![1, 1, 1, 1, 1] ![0, 0, 1, 1, 1] ![0, 0, 1, 1, 1] x v reduceWindows_S2x4x64x256x256_S2x4x64x256x256_w1s1p0_0_w1s1p0_0_w3s1p1_1_w3s1p1_1_w3s1p1_1 h_S_) : (⟨S2x4x64x256x256, .f32⟩ : BufTy).Contents (Elt F) → (⟨S_, .f32⟩ : BufTy).Contents (Elt F) → (⟨S2x4x64x256x256, .f32⟩ : BufTy).Contents (Elt F)),
    nullary main_cst_3 (constant S_ .f32 0x3F800000#32),
    unary main_cst_3 main_v14 (broadcastInDim S2x4x64x256x256 ![] bcast_S_S2x4x64x256x256 : (⟨S_, .f32⟩ : BufTy).Contents (Elt F) → (⟨S2x4x64x256x256, .f32⟩ : BufTy).Contents (Elt F)),
    binary main_v13 main_v14 main_v15 (cmpf .oge : (⟨S2x4x64x256x256, .f32⟩ : BufTy).Contents (Elt F) → (⟨S2x4x64x256x256, .f32⟩ : BufTy).Contents (Elt F) → (⟨S2x4x64x256x256, .i1⟩ : BufTy).Contents (Elt F)),
    unary main_v15 main_v16 (uitofp .f32 : (⟨S2x4x64x256x256, .i1⟩ : BufTy).Contents (Elt F) → (⟨S2x4x64x256x256, .f32⟩ : BufTy).Contents (Elt F)),
    binary main_v16 main_v11 main_v17 (subf : (⟨S2x4x64x256x256, .f32⟩ : BufTy).Contents (Elt F) → (⟨S2x4x64x256x256, .f32⟩ : BufTy).Contents (Elt F) → (⟨S2x4x64x256x256, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., binary_bufs_sub .., unary_bufs_sub .., nullary_bufs_sub .., binary_bufs_sub .., unary_bufs_sub .., unary_bufs_sub .., binary_bufs_sub .., binary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub ..⟩

/-! ## The composed term, stage by stage -/

/-- A per-channel vector spread over the whole array: entry `(b, c, d, h, w)` is the vector's entry `c`. -/
def spread (v : (⟨S4, .f32⟩ : BufTy).Contents (Elt F)) : (⟨S1x4x1x1x1, .f32⟩ : BufTy).Contents (Elt F) :=
  broadcastInDim S1x4x1x1x1 ![1] bcast_S4_S1x4x1x1x1_1 v

/-- The normalisation `(x - lo) / (hi - lo)`, channel by channel. -/
def norm (x : (⟨S2x4x64x256x256, .f32⟩ : BufTy).Contents (Elt F)) (lo hi : (⟨S4, .f32⟩ : BufTy).Contents (Elt F)) : (⟨S2x4x64x256x256, .f32⟩ : BufTy).Contents (Elt F) :=
  Host.divf (subf x (broadcastInDim S2x4x64x256x256 ![0, 1, 2, 3, 4] bcast_S1x4x1x1x1_S2x4x64x256x256_0_1_2_3_4 (spread lo)))
    (broadcastInDim S2x4x64x256x256 ![0, 1, 2, 3, 4] bcast_S1x4x1x1x1_S2x4x64x256x256_0_1_2_3_4 (subf (spread hi) (spread lo)))

/-- The mask: 1 where the normalisation exceeds one half, else 0. -/
def bin (x : (⟨S2x4x64x256x256, .f32⟩ : BufTy).Contents (Elt F)) (lo hi : (⟨S4, .f32⟩ : BufTy).Contents (Elt F)) : (⟨S2x4x64x256x256, .f32⟩ : BufTy).Contents (Elt F) :=
  uitofp .f32 (cmpf .ogt (norm x lo hi)
    (broadcastInDim S2x4x64x256x256 ![] bcast_S_S2x4x64x256x256 (constant S_ .f32 0x3F000000#32 : (⟨S_, .f32⟩ : BufTy).Contents (Elt F))) : (⟨S2x4x64x256x256, .i1⟩ : BufTy).Contents (Elt F))

/-- The windowed maximum of an array over 3×3×3 neighbourhoods of the last three axes, padded by one with `-∞`. -/
def win (b : (⟨S2x4x64x256x256, .f32⟩ : BufTy).Contents (Elt F)) : (⟨S2x4x64x256x256, .f32⟩ : BufTy).Contents (Elt F) :=
  Host.reduceWindow FloatOps.maximumf ![1, 1, 3, 3, 3] ![1, 1, 1, 1, 1] ![0, 0, 1, 1, 1] ![0, 0, 1, 1, 1] b
    (broadcastInDim S_ ![] bcast_S_S_ (constant S_ .f32 0xFF800000#32 : (⟨S_, .f32⟩ : BufTy).Contents (Elt F)) : (⟨S_, .f32⟩ : BufTy).Contents (Elt F)) reduceWindows_S2x4x64x256x256_S2x4x64x256x256_w1s1p0_0_w1s1p0_0_w3s1p1_1_w3s1p1_1_w3s1p1_1 h_S_

/-- The dilated mask: 1 where the windowed maximum reaches one, else 0. -/
def dil (b : (⟨S2x4x64x256x256, .f32⟩ : BufTy).Contents (Elt F)) : (⟨S2x4x64x256x256, .f32⟩ : BufTy).Contents (Elt F) :=
  uitofp .f32 (cmpf .oge (win b)
    (broadcastInDim S2x4x64x256x256 ![] bcast_S_S2x4x64x256x256 (constant S_ .f32 0x3F800000#32 : (⟨S_, .f32⟩ : BufTy).Contents (Elt F))) : (⟨S2x4x64x256x256, .i1⟩ : BufTy).Contents (Elt F))

/-- The channel minima of the array. -/
def lo (x : (⟨S2x4x64x256x256, .f32⟩ : BufTy).Contents (Elt F)) : (⟨S4, .f32⟩ : BufTy).Contents (Elt F) :=
  Host.reduce FloatOps.minimumf x (constant S_ .f32 0x7F800000#32 : (⟨S_, .f32⟩ : BufTy).Contents (Elt F)) reducesTo_S2x4x64x256x256_S4_d0_2_3_4 h_S_

/-- The channel maxima of the array. -/
def hi (x : (⟨S2x4x64x256x256, .f32⟩ : BufTy).Contents (Elt F)) : (⟨S4, .f32⟩ : BufTy).Contents (Elt F) :=
  Host.reduce FloatOps.maximumf x (constant S_ .f32 0xFF800000#32 : (⟨S_, .f32⟩ : BufTy).Contents (Elt F)) reducesTo_S2x4x64x256x256_S4_d0_2_3_4 h_S_

/-- The whole program as a function of its argument: the dilated mask less the mask. -/
def refTerm (x : (⟨S2x4x64x256x256, .f32⟩ : BufTy).Contents (Elt F)) : (⟨S2x4x64x256x256, .f32⟩ : BufTy).Contents (Elt F) :=
  subf (dil (bin x (lo x) (hi x))) (bin x (lo x) (hi x))

/-- On every device, from any memory with zero counters: every weakly fair execution of the program
    terminates with the result buffer at `refTerm` of the argument's launch contents and the argument unchanged. -/
theorem run_refTerm (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v17) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v17).trans (by after_results; rfl),
      (h c main_arg0).trans (by after_results)⟩)
    (run_seq scopedRefs_eq scopedSems_eq defs main (fun _ => ops) main_eq (fun _ => ops_sub) m ρ)

end Cert.ReferenceIdeal.Hand

end
-- ==== Proof.RefValue.lean ====
/-
  The reference program's result is the boundary map.

  Read at one index `(b, c, d, h, w)`, the program's composed term is
  `[1 ≤ the largest mask value in the 3×3×3 window around (d, h, w)] - [the mask at (d, h, w)]`,
  the mask being `1` where the normalisation `(x - lo c) / (hi c - lo c)` exceeds one half and `0` elsewhere.

  The elementwise stages read through at the index. The one stage with content is the windowed maximum: a left fold of
  `max` from `-∞` over the 27 cells of the window, a cell holding the mask where the padded position
  `(d + y₂ - 1, h + y₃ - 1, w + y₄ - 1)`, `y ∈ {0, 1, 2}³`, lies inside the array and `-∞` where it does not. A fold of
  `max` reaches a bound exactly when its start or one of its terms does; `-∞` never reaches `1`, and a 0/1 bracket
  reaches `1` exactly when its proposition holds. So the fold reaches `1` exactly when some cell inside the array is ON,
  and the cells inside the array are the entries `(d', h', w')` within one step of `(d, h, w)` on each axis:
  `d' = d + y₂ - 1` one way, `y₂ = d' + 1 - d` the other.
-/
import proofs.«135130_j32341103739184_2_alg».proof.Proof.RefRun
import proofs.«135130_j32341103739184_2_alg».proof.Proof.Boundary
import Idealize.ShloMosaic.Lib.ValueIdx
import Idealize.ShloMosaic.Lib.Pipeline.Value

noncomputable section

namespace Cert.ReferenceIdeal.Hand

open Cert.ReferenceIdeal Cert.ReferenceIdeal.Facts₀ Cert.Boundary Idealize.ShloMosaic Idealize.ShloMosaic.ValueIdx Idealize.ShloMosaic.TcCoe Idealize.SL.Sem Idealize.ShloMosaic.StableHlo

variable [Facts]

/-- A left fold of `max` reaches a bound exactly when its start or one of its terms does. -/
theorem le_foldl_max_iff {α ι : Type} [LinearOrder α] (g : ι → α) (a : α) (l : List ι) (v : α) :
    a ≤ l.foldl (fun r n => max r (g n)) v ↔ a ≤ v ∨ ∃ n ∈ l, a ≤ g n := by
  induction l generalizing v with
  | nil => simp
  | cons n l ih =>
    rw [List.foldl_cons, ih, le_max_iff]
    constructor
    · rintro ((h | h) | ⟨k, hk, h⟩)
      · exact Or.inl h
      · exact Or.inr ⟨n, List.mem_cons_self .., h⟩
      · exact Or.inr ⟨k, List.mem_cons_of_mem _ hk, h⟩
    · rintro (h | ⟨k, hk, h⟩)
      · exact Or.inl (Or.inl h)
      · rcases List.mem_cons.1 hk with rfl | hk
        · exact Or.inl (Or.inr h)
        · exact Or.inr ⟨k, hk, h⟩

/-- A 0/1 bracket reaches one exactly when its proposition holds. -/
theorem one_le_ind (P : Prop) : (1 : EReal) ≤ ind P ↔ P := by
  by_cases h : P
  · rw [ind_true h]; exact iff_of_true le_rfl h
  · rw [ind_false h]; exact iff_of_false (not_le.2 zero_lt_one) h

/-- A decided bit read as an unsigned number is the bracket of its proposition. -/
theorem uitofp_ofBool (P : Prop) [Decidable P] :
    (FloatOps.uitofp (F := Ideal) .f32 (BitVec.ofBool (decide P)) : EReal) = ind P := by
  by_cases h : P
  · rw [ind_true h]; simp [h, FloatOps.uitofp]
  · rw [ind_false h]; simp [h, FloatOps.uitofp]

/-- A per-channel vector laid along the channel axis of a `[1, 4, 1, 1, 1]` array, read at an index. -/
theorem spread_apply (v : (⟨S4, .f32⟩ : BufTy).Contents (Elt Ideal)) (j : S1x4x1x1x1.Idx) :
    spread v j = v (ix1 (j 1)) :=
  broadcastInDim_apply _ bcast_S4_S1x4x1x1x1_1 v j (ix1 (j 1)) (fun a => by
    have ha : a = 0 := Subsingleton.elim _ _
    subst ha
    rfl)

/-- A `[1, 4, 1, 1, 1]` array spread over the whole shape, read at an index: only the channel coordinate matters. -/
theorem over_apply (y : (⟨S1x4x1x1x1, .f32⟩ : BufTy).Contents (Elt Ideal)) (j : S2x4x64x256x256.Idx) :
    broadcastInDim S2x4x64x256x256 ![0, 1, 2, 3, 4] bcast_S1x4x1x1x1_S2x4x64x256x256_0_1_2_3_4 y j
      = y (ix5 0 (j 1) 0 0 0) :=
  broadcastInDim_apply _ bcast_S1x4x1x1x1_S2x4x64x256x256_0_1_2_3_4 y j (ix5 0 (j 1) 0 0 0) (fun a => by
    match a with
    | ⟨0, _⟩ => rfl
    | ⟨1, _⟩ => rfl
    | ⟨2, _⟩ => rfl
    | ⟨3, _⟩ => rfl
    | ⟨4, _⟩ => rfl)

/-- The normalisation read at an index. -/
theorem norm_apply (x : (⟨S2x4x64x256x256, .f32⟩ : BufTy).Contents (Elt Ideal)) (lo hi : (⟨S4, .f32⟩ : BufTy).Contents (Elt Ideal))
    (j : S2x4x64x256x256.Idx) :
    norm x lo hi j = Ideal.div (x j - lo (ix1 (j 1))) (hi (ix1 (j 1)) - lo (ix1 (j 1))) := by
  show Ideal.div (x j - broadcastInDim S2x4x64x256x256 ![0, 1, 2, 3, 4] bcast_S1x4x1x1x1_S2x4x64x256x256_0_1_2_3_4 (spread lo) j)
      (broadcastInDim S2x4x64x256x256 ![0, 1, 2, 3, 4] bcast_S1x4x1x1x1_S2x4x64x256x256_0_1_2_3_4 (subf (spread hi) (spread lo)) j) = _
  rw [over_apply, over_apply, spread_apply]
  show Ideal.div (x j - lo _) (spread hi _ - spread lo _) = _
  rw [spread_apply, spread_apply]

/-- The window's shape: one cell along the batch and channel axes, three along each of the last three. -/
abbrev Wn : Shape := ⟨5, ![1, 1, 3, 3, 3]⟩

/-- One cell of the window at `j`: the array's entry where the padded position lies inside the array, else `v`. -/
def cell (b : S2x4x64x256x256.Idx → EReal) (v : EReal) (j : S2x4x64x256x256.Idx) (y : Wn.Idx) : EReal :=
  if hin : ∀ a : Fin 5, (![0, 0, 1, 1, 1] : Fin 5 → Nat) a ≤ (j a).val * (![1, 1, 1, 1, 1] : Fin 5 → Nat) a + (y a).val
      ∧ (j a).val * (![1, 1, 1, 1, 1] : Fin 5 → Nat) a + (y a).val - (![0, 0, 1, 1, 1] : Fin 5 → Nat) a < S2x4x64x256x256.size a
  then b (fun a => ⟨(j a).val * (![1, 1, 1, 1, 1] : Fin 5 → Nat) a + (y a).val - (![0, 0, 1, 1, 1] : Fin 5 → Nat) a, (hin a).2⟩)
  else v

/-- The windowed maximum at `j` is the fold of `max` over the window's cells, from `-∞`. -/
theorem win_apply (b : (⟨S2x4x64x256x256, .f32⟩ : BufTy).Contents (Elt Ideal)) (j : S2x4x64x256x256.Idx) :
    win b j = (List.finRange Wn.numel).foldl
      (fun r n => max r (cell b (Ideal.ofBits .f32 0xFF800000#32) j (Wn.rowMajor.symm n)))
      (Ideal.ofBits .f32 0xFF800000#32) := by
  unfold win Host.reduceWindow cell
  simp only []
  rfl

/-- The f32 word of `-∞` denotes the bottom element. -/
theorem negInf_eq : Ideal.ofBits .f32 0xFF800000#32 = (⊥ : EReal) := by simp [Ideal.ofBits, Ideal.ieee]
/-- The f32 word of `1.0` denotes one. -/
theorem one_eq : Ideal.ofBits .f32 0x3F800000#32 = (1 : EReal) := by
  simp [Ideal.ofBits, Ideal.ieee, -EReal.coe_mul]; norm_num

/-- `-∞` does not reach one. -/
theorem not_one_le_bot : ¬ (1 : EReal) ≤ ⊥ := fun h => EReal.coe_ne_bot 1 (le_bot_iff.1 h)

/-- The windowed maximum of a 0/1 mask reaches one at `j` exactly when the mask's proposition holds at some entry of the
    same batch and channel within one step of `j` along each of the last three axes. -/
theorem one_le_win_iff (P : S2x4x64x256x256.Idx → Prop) (j : S2x4x64x256x256.Idx) :
    (1 : EReal) ≤ win (F := Ideal) (fun i => ind (P i)) j ↔
      ∃ (d' : Fin 64) (h' w' : Fin 256), Near (j 2) d' ∧ Near (j 3) h' ∧ Near (j 4) w' ∧ P (ix5 (j 0) (j 1) d' h' w') := by
  rw [win_apply, le_foldl_max_iff, negInf_eq]
  have j0 : (j 0).val < 2 := (j 0).isLt
  have j1 : (j 1).val < 4 := (j 1).isLt
  have j2 : (j 2).val < 64 := (j 2).isLt
  have j3 : (j 3).val < 256 := (j 3).isLt
  have j4 : (j 4).val < 256 := (j 4).isLt
  constructor
  · rintro (h | ⟨n, -, h⟩)
    · exact absurd h not_one_le_bot
    · generalize Wn.rowMajor.symm n = y at h
      unfold cell at h
      split_ifs at h with hin
      · rw [one_le_ind] at h
        have y0 : (y 0).val < 1 := (y 0).isLt
        have y1 : (y 1).val < 1 := (y 1).isLt
        have y2 : (y 2).val < 3 := (y 2).isLt
        have y3 : (y 3).val < 3 := (y 3).isLt
        have y4 : (y 4).val < 3 := (y 4).isLt
        have h2 : 1 ≤ (j 2).val * 1 + (y 2).val ∧ (j 2).val * 1 + (y 2).val - 1 < 64 := hin 2
        have h3 : 1 ≤ (j 3).val * 1 + (y 3).val ∧ (j 3).val * 1 + (y 3).val - 1 < 256 := hin 3
        have h4 : 1 ≤ (j 4).val * 1 + (y 4).val ∧ (j 4).val * 1 + (y 4).val - 1 < 256 := hin 4
        refine ⟨⟨(j 2).val * 1 + (y 2).val - 1, h2.2⟩, ⟨(j 3).val * 1 + (y 3).val - 1, h3.2⟩, ⟨(j 4).val * 1 + (y 4).val - 1, h4.2⟩, ?_, ?_, ?_, ?_⟩
        · constructor
          · show (j 2).val * 1 + (y 2).val - 1 ≤ (j 2).val + 1; omega
          · show (j 2).val ≤ (j 2).val * 1 + (y 2).val - 1 + 1; omega
        · constructor
          · show (j 3).val * 1 + (y 3).val - 1 ≤ (j 3).val + 1; omega
          · show (j 3).val ≤ (j 3).val * 1 + (y 3).val - 1 + 1; omega
        · constructor
          · show (j 4).val * 1 + (y 4).val - 1 ≤ (j 4).val + 1; omega
          · show (j 4).val ≤ (j 4).val * 1 + (y 4).val - 1 + 1; omega
        · refine (congrArg P ?_).mp h
          funext a
          match a with
          | ⟨0, _⟩ => exact Fin.ext (by show (j 0).val * 1 + (y 0).val - 0 = (j 0).val; omega)
          | ⟨1, _⟩ => exact Fin.ext (by show (j 1).val * 1 + (y 1).val - 0 = (j 1).val; omega)
          | ⟨2, _⟩ => rfl
          | ⟨3, _⟩ => rfl
          | ⟨4, _⟩ => rfl
      · exact absurd h not_one_le_bot
  · rintro ⟨d', h', w', ⟨hd1, hd2⟩, ⟨hh1, hh2⟩, ⟨hw1, hw2⟩, hP⟩
    let y : Wn.Idx := ix5 (⟨0, by omega⟩ : Fin 1) (⟨0, by omega⟩ : Fin 1)
      (⟨d'.val + 1 - (j 2).val, by omega⟩ : Fin 3) (⟨h'.val + 1 - (j 3).val, by omega⟩ : Fin 3)
      (⟨w'.val + 1 - (j 4).val, by omega⟩ : Fin 3)
    refine Or.inr ⟨Wn.rowMajor y, List.mem_finRange _, ?_⟩
    rw [Equiv.symm_apply_apply]
    have hin : ∀ a : Fin 5, (![0, 0, 1, 1, 1] : Fin 5 → Nat) a ≤ (j a).val * (![1, 1, 1, 1, 1] : Fin 5 → Nat) a + (y a).val
        ∧ (j a).val * (![1, 1, 1, 1, 1] : Fin 5 → Nat) a + (y a).val - (![0, 0, 1, 1, 1] : Fin 5 → Nat) a < S2x4x64x256x256.size a := fun a =>
      match a with
      | ⟨0, _⟩ => by show 0 ≤ (j 0).val * 1 + 0 ∧ (j 0).val * 1 + 0 - 0 < 2; omega
      | ⟨1, _⟩ => by show 0 ≤ (j 1).val * 1 + 0 ∧ (j 1).val * 1 + 0 - 0 < 4; omega
      | ⟨2, _⟩ => by
        show 1 ≤ (j 2).val * 1 + (d'.val + 1 - (j 2).val) ∧ (j 2).val * 1 + (d'.val + 1 - (j 2).val) - 1 < 64
        have := d'.isLt; omega
      | ⟨3, _⟩ => by
        show 1 ≤ (j 3).val * 1 + (h'.val + 1 - (j 3).val) ∧ (j 3).val * 1 + (h'.val + 1 - (j 3).val) - 1 < 256
        have := h'.isLt; omega
      | ⟨4, _⟩ => by
        show 1 ≤ (j 4).val * 1 + (w'.val + 1 - (j 4).val) ∧ (j 4).val * 1 + (w'.val + 1 - (j 4).val) - 1 < 256
        have := w'.isLt; omega
    unfold cell
    rw [dif_pos hin, one_le_ind]
    refine (congrArg P ?_).mpr hP
    funext a
    match a with
    | ⟨0, _⟩ => exact Fin.ext (by show (j 0).val * 1 + 0 - 0 = (j 0).val; omega)
    | ⟨1, _⟩ => exact Fin.ext (by show (j 1).val * 1 + 0 - 0 = (j 1).val; omega)
    | ⟨2, _⟩ => exact Fin.ext (by show (j 2).val * 1 + (d'.val + 1 - (j 2).val) - 1 = d'.val; omega)
    | ⟨3, _⟩ => exact Fin.ext (by show (j 3).val * 1 + (h'.val + 1 - (j 3).val) - 1 = h'.val; omega)
    | ⟨4, _⟩ => exact Fin.ext (by show (j 4).val * 1 + (w'.val + 1 - (j 4).val) - 1 = w'.val; omega)

/-- The mask at coordinates is the bracket of ON. -/
theorem bin_apply (x : (⟨S2x4x64x256x256, .f32⟩ : BufTy).Contents (Elt Ideal)) (lo hi : (⟨S4, .f32⟩ : BufTy).Contents (Elt Ideal)) (b : Fin 2) (c : Fin 4) (d : Fin 64) (h w : Fin 256) :
    bin x lo hi (ix5 b c d h w) = ind (On x lo hi b c d h w) := by
  show FloatOps.uitofp (F := Ideal) .f32 (Ideal.cmp .ogt (norm x lo hi (ix5 b c d h w)) half) = _
  rw [norm_apply]
  exact uitofp_ofBool _

/-- The mask as a function of the index. -/
theorem bin_eq (x : (⟨S2x4x64x256x256, .f32⟩ : BufTy).Contents (Elt Ideal)) (lo hi : (⟨S4, .f32⟩ : BufTy).Contents (Elt Ideal)) :
    bin x lo hi = fun i => ind (On x lo hi (i 0) (i 1) (i 2) (i 3) (i 4)) := by
  funext i
  conv_lhs => rw [eq_ix5 i]
  exact bin_apply x lo hi _ _ _ _ _

/-- The dilated mask at an index is the bracket of: some entry of the 3×3×3 neighbourhood is ON. -/
theorem dil_bin_apply (x : (⟨S2x4x64x256x256, .f32⟩ : BufTy).Contents (Elt Ideal)) (lo hi : (⟨S4, .f32⟩ : BufTy).Contents (Elt Ideal)) (j : S2x4x64x256x256.Idx) :
    dil (bin x lo hi) j = ind (Dil x lo hi (j 0) (j 1) (j 2) (j 3) (j 4)) := by
  rw [bin_eq]
  show FloatOps.uitofp (F := Ideal) .f32 (BitVec.ofBool (decide (Ideal.ofBits .f32 0x3F800000#32
    ≤ win (F := Ideal) (fun i => ind (On x lo hi (i 0) (i 1) (i 2) (i 3) (i 4))) j))) = _
  rw [uitofp_ofBool, one_eq]
  exact ind_congr (one_le_win_iff _ j)

/-- The program's composed term is the boundary map of the array and its channel extremes. -/
theorem refTerm_eq (x : (⟨S2x4x64x256x256, .f32⟩ : BufTy).Contents (Elt Ideal)) : refTerm (F := Ideal) x = boundary x (lo x) (hi x) := by
  funext j
  show dil (bin x (lo x) (hi x)) j - bin x (lo x) (hi x) j = _
  rw [dil_bin_apply, bin_eq]
  rfl

/-- The reference program's run: from any launch memory it ends with the result buffer holding the boundary map of the
    argument array and of the argument's channel minima and maxima (the program's own two reductions, left as they
    are), and with the argument array as it was. -/
theorem ref_run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v17)
          = Cert.Boundary.boundary (m ((c.tc : Thread nD τ).loc main_arg0))
              (Host.reduce (FloatOps.minimumf (F := Ideal) (φ := .f32)) (m ((c.tc : Thread nD τ).loc main_arg0)) (constant (F := Ideal) S_ .f32 0x7F800000#32) reducesTo_S2x4x64x256x256_S4_d0_2_3_4 h_S_)
              (Host.reduce (FloatOps.maximumf (F := Ideal) (φ := .f32)) (m ((c.tc : Thread nD τ).loc main_arg0)) (constant (F := Ideal) S_ .f32 0xFF800000#32) reducesTo_S2x4x64x256x256_S4_d0_2_3_4 h_S_)
        ∧ r.2.mem ((c.tc : Thread nD τ).loc main_arg0) = m ((c.tc : Thread nD τ).loc main_arg0)) :=
  (θ_run defs _ _).mono (fun _ h c => ⟨(h c).1.trans (refTerm_eq _), (h c).2⟩) (run_refTerm m ρ)

end Cert.ReferenceIdeal.Hand
end
-- ==== Proof.lean ====
/-
  The kernel and its reference compute one function: the boundary of a thresholded volume.

  For an array `x : [2, 4, 64, 256, 256]` both programs normalise each entry within its channel by the channel's
  minimum and maximum over the whole array, mark the entries whose normalisation exceeds one half, dilate the 0/1
  mask by a 3×3×3 neighbourhood cut off at the array's faces, and subtract the mask (Proof/Boundary.lean states
  the map). The reference dilates by a windowed maximum padded with -∞ and a comparison with 1 (Proof/RefValue.lean);
  the kernel, block of four depth rows by block, by three-tap maxima along depth (with one-row halos, zeroed at the
  array's first and last row), height and width in turn (Proof/Taps.lean, PadD.lean, DepthBlocks.lean,
  KernelPayload.lean, BlockValue.lean), and the 2 × 16 blocks it writes tile the result (Proof/KernelValue.lean,
  KernelRun.lean). On the extended reals the two are equal index by index, and no law used needs a finite input:
  the two programs apply the same operations to the same entries, and only the arrangement of maxima of 0/1
  values differs.

  The kernel's three input windows share the argument array, so its run is launched with the array's share split
  among them (Proof/KernelFrame.lean for the printed program, Proof/KernelIdealFrame.lean for its idealization).
  The idealization differs from the printed kernel in one place, a value narrowed to bf16 and widened back, which
  over the extended reals is the identity: the rule's statement.
-/
import proofs.«135130_j32341103739184_2_alg».proof.Defs
import proofs.«135130_j32341103739184_2_alg».proof.Proof.Gen.Kernel
import proofs.«135130_j32341103739184_2_alg».proof.Proof.Gen.KernelIdeal
import proofs.«135130_j32341103739184_2_alg».proof.Proof.Gen.ReferenceIdeal
import proofs.«135130_j32341103739184_2_alg».proof.Proof.Gen.Pre_finite_inputs
import proofs.«135130_j32341103739184_2_alg».proof.Proof.KernelFrame
import proofs.«135130_j32341103739184_2_alg».proof.Proof.KernelRun
import proofs.«135130_j32341103739184_2_alg».proof.Proof.RefValue
import Idealize.ShloMosaic.Adequacy
import Idealize.ShloMosaic.Init

noncomputable section

namespace Cert.Proof

open Idealize.ShloMosaic Idealize.SL.Sem

/-- The printed kernel runs and leaves its argument as it was. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- So does the reference: its run with the result dropped. -/
theorem frame_r : Cert.frame_ReferenceIdeal := fun m ρ _ =>
  (θ_run Cert.ReferenceIdeal.defs _ _).mono (fun _ h c => (h c).2) (Cert.ReferenceIdeal.Hand.ref_run m ρ)

/-- Narrowing to bf16 and widening back is the identity on the extended reals. -/
theorem preserves : Cert.preserves_Kernel_KernelIdeal :=
  IdealRules.truncf_extf.statement Cert.KernelIdeal.S4x4x256x256 .f32 .bf16

/-- Both runs end at the boundary map of the (agreeing) argument arrays. -/
theorem algebraic : Cert.algebraic_KernelIdeal_ReferenceIdeal := by
  intro m ρ m' ρ' _ hagree
  refine ⟨fun c => Cert.KernelIdeal.Val.result m c, Cert.KernelIdeal.Val.kernel_run m ρ, ?_⟩
  refine (θ_run Cert.ReferenceIdeal.defs _ _).mono (fun _ h c => ⟨(h c).1.trans ?_, (h c).2⟩)
    (Cert.ReferenceIdeal.Hand.ref_run m' ρ')
  rw [hagree c]
  rfl

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
